-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100 : Shape := ⟨2, ![1024, 100]⟩
abbrev S1024 : Shape := ⟨1, ![1024]⟩
abbrev S8x16 : Shape := ⟨2, ![8, 16]⟩
abbrev S116x256 : Shape := ⟨2, ![116, 256]⟩
abbrev S256 : Shape := ⟨1, ![256]⟩
abbrev S256x512 : Shape := ⟨2, ![256, 512]⟩
abbrev S512 : Shape := ⟨1, ![512]⟩
abbrev S512x1024 : Shape := ⟨2, ![512, 1024]⟩
abbrev S1024x66049 : Shape := ⟨2, ![1024, 66049]⟩
abbrev S66049 : Shape := ⟨1, ![66049]⟩
abbrev S_ : Shape := ⟨0, ![]⟩

class Facts : Prop where
  bcast_S_S1024x100 : S_.BroadcastsInDim S1024x100 (![] : Fin 0 → Fin S1024x100.rank)
  reducesTo_S1024x100_S_d0_1 : S1024x100.ReducesTo [0, 1] S_
  h_S_ : 0 < S_.numel
  bcast_S_S8x16 : S_.BroadcastsInDim S8x16 (![] : Fin 0 → Fin S8x16.rank)
  reducesTo_S8x16_S_d0_1 : S8x16.ReducesTo [0, 1] S_
  bcast_S_S116x256 : S_.BroadcastsInDim S116x256 (![] : Fin 0 → Fin S116x256.rank)
  reducesTo_S116x256_S_d0_1 : S116x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x66049 : S_.BroadcastsInDim S1024x66049 (![] : Fin 0 → Fin S1024x66049.rank)
  reducesTo_S1024x66049_S_d0_1 : S1024x66049.ReducesTo [0, 1] S_
  bcast_S_S66049 : S_.BroadcastsInDim S66049 (![] : Fin 0 → Fin S66049.rank)
  reducesTo_S66049_S_d0 : S66049.ReducesTo [0] S_

variable [Facts]

def fn_part2 {F : FTy → Type} [FloatOps F] (main_arg8 : FVec F S1024 .f32) (main_arg9 : FVec F S1024x66049 .f32) (main_arg10 : FVec F S66049 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x66049 .f32 := Host.absf main_arg9
  let main_cst_14 : FVec F S_ .f32 := constant S_ .f32 0x7F800000#32
  let main_v40 : FVec F S1024x66049 .f32 := broadcastInDim S1024x66049 ![] bcast_S_S1024x66049 main_cst_14
  let main_v41 : IVec S1024x66049 1 := cmpf .olt main_v39 main_v40
  let main_c_15 : IVec S_ 1 := constantI S_ 1 1#1
  let main_v42 : IVec S_ 1 := (fun x v => Host.reduce IntOp.andi x v reducesTo_S1024x66049_S_d0_1 h_S_) main_v41 main_c_15
  let main_v43 : IVec S_ 1 := andi main_v38 main_v42
  let main_v44 : FVec F S66049 .f32 := Host.absf main_arg10
  let main_cst_16 : FVec F S_ .f32 := constant S_ .f32 0x7F800000#32
  let main_v45 : FVec F S66049 .f32 := broadcastInDim S66049 ![] bcast_S_S66049 main_cst_16
  let main_v46 : IVec S66049 1 := cmpf .olt main_v44 main_v45
  let main_c_17 : IVec S_ 1 := constantI S_ 1 1#1
  let main_v47 : IVec S_ 1 := (fun x v => Host.reduce IntOp.andi x v reducesTo_S66049_S_d0 h_S_) main_v46 main_c_17
  let main_v48 : IVec S_ 1 := andi main_v43 main_v47
  main_v48

def fn_part1 {F : FTy → Type} [FloatOps F] (main_arg5 : FVec F S256x512 .f32) (main_arg6 : FVec F S512 .f32) (main_arg7 : FVec F S512x1024 .f32) (main_arg8 : FVec F S1024 .f32) (main_arg9 : FVec F S1024x66049 .f32) (main_arg10 : FVec F S66049 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg5
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg7
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg8 main_arg9 main_arg10 main_v33

def fn {F : FTy → Type} [FloatOps F] (main_arg0 : FVec F S1024x100 .f32) (main_arg1 : IVec S1024 32) (main_arg2 : FVec F S8x16 .f32) (main_arg3 : FVec F S116x256 .f32) (main_arg4 : FVec F S256 .f32) (main_arg5 : FVec F S256x512 .f32) (main_arg6 : FVec F S512 .f32) (main_arg7 : FVec F S512x1024 .f32) (main_arg8 : FVec F S1024 .f32) (main_arg9 : FVec F S1024x66049 .f32) (main_arg10 : FVec F S66049 .f32) : IVec S_ 1 :=
  let main_v0 : FVec F S1024x100 .f32 := Host.absf main_arg0
  let main_cst : FVec F S_ .f32 := constant S_ .f32 0x7F800000#32
  let main_v1 : FVec F S1024x100 .f32 := broadcastInDim S1024x100 ![] bcast_S_S1024x100 main_cst
  let main_v2 : IVec S1024x100 1 := cmpf .olt main_v0 main_v1
  let main_c : IVec S_ 1 := constantI S_ 1 1#1
  let main_v3 : IVec S_ 1 := (fun x v => Host.reduce IntOp.andi x v reducesTo_S1024x100_S_d0_1 h_S_) main_v2 main_c
  let main_v4 : FVec F S8x16 .f32 := Host.absf main_arg2
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S116x256 .f32 := Host.absf main_arg3
  let main_cst_2 : FVec F S_ .f32 := constant S_ .f32 0x7F800000#32
  let main_v10 : FVec F S116x256 .f32 := broadcastInDim S116x256 ![] bcast_S_S116x256 main_cst_2
  let main_v11 : IVec S116x256 1 := cmpf .olt main_v9 main_v10
  let main_c_3 : IVec S_ 1 := constantI S_ 1 1#1
  let main_v12 : IVec S_ 1 := (fun x v => Host.reduce IntOp.andi x v reducesTo_S116x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S1024x100 : Shape := ⟨2, ![1024, 100]⟩
abbrev S1024 : Shape := ⟨1, ![1024]⟩
abbrev S8x16 : Shape := ⟨2, ![8, 16]⟩
abbrev S116x256 : Shape := ⟨2, ![116, 256]⟩
abbrev S256 : Shape := ⟨1, ![256]⟩
abbrev S256x512 : Shape := ⟨2, ![256, 512]⟩
abbrev S512 : Shape := ⟨1, ![512]⟩
abbrev S512x1024 : Shape := ⟨2, ![512, 1024]⟩
abbrev S1024x66049 : Shape := ⟨2, ![1024, 66049]⟩
abbrev S66049 : Shape := ⟨1, ![66049]⟩
abbrev S_ : Shape := ⟨0, ![]⟩
abbrev S1024x1 : Shape := ⟨2, ![1024, 1]⟩
abbrev S1024x16 : Shape := ⟨2, ![1024, 16]⟩
abbrev S1024x116 : Shape := ⟨2, ![1024, 116]⟩
abbrev S1024x128 : Shape := ⟨2, ![1024, 128]⟩
abbrev S128x256 : Shape := ⟨2, ![128, 256]⟩
abbrev S1x256 : Shape := ⟨2, ![1, 256]⟩
abbrev S1x512 : Shape := ⟨2, ![1, 512]⟩
abbrev S1x1024 : Shape := ⟨2, ![1, 1024]⟩
abbrev S1024x1024 : Shape := ⟨2, ![1024, 1024]⟩
abbrev S512x128 : Shape := ⟨2, ![512, 128]⟩
abbrev S512x256 : Shape := ⟨2, ![512, 256]⟩
abbrev S512x512 : Shape := ⟨2, ![512, 512]⟩
abbrev S1x66049 : Shape := ⟨2, ![1, 66049]⟩
abbrev S1024x1280 : Shape := ⟨2, ![1024, 1280]⟩
abbrev S1x1280 : Shape := ⟨2, ![1, 1280]⟩
abbrev S1024x257x257 : Shape := ⟨3, ![1024, 257, 257]⟩

abbrev nBuf : Space → Nat
  | .hbm => 38
  | .vmem => 17
  | .smem => 0
  | _ => 0

abbrev bufTy : (tb : Table) → Fin (tcTables nBuf tb) → BufTy
  | .hbm, ⟨0, _⟩ => ⟨S1024x100, .f32⟩
  | .hbm, ⟨1, _⟩ => ⟨S1024, .i32⟩
  | .hbm, ⟨2, _⟩ => ⟨S8x16, .f32⟩
  | .hbm, ⟨3, _⟩ => ⟨S116x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x1024, .f32⟩
  | .hbm, ⟨8, _⟩ => ⟨S1024, .f32⟩
  | .hbm, ⟨9, _⟩ => ⟨S1024x66049, .f32⟩
  | .hbm, ⟨10, _⟩ => ⟨S66049, .f32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1024x16, .f32⟩
  | .hbm, ⟨20, _⟩ => ⟨S1024x116, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x128, .bf16⟩
  | .hbm, ⟨25, _⟩ => ⟨S_, .i32⟩
  | .hbm, ⟨26, _⟩ => ⟨S_, .f32⟩
  | .hbm, ⟨27, _⟩ => ⟨S128x256, .f32⟩
  | .hbm, ⟨28, _⟩ => ⟨S128x256, .bf16⟩
  | .hbm, ⟨29, _⟩ => ⟨S1x256, .f32⟩
  | .hbm, ⟨30, _⟩ => ⟨S256x512, .bf16⟩
  | .hbm, ⟨31, _⟩ => ⟨S1x512, .f32⟩
  | .hbm, ⟨32, _⟩ => ⟨S512x1024, .bf16⟩
  | .hbm, ⟨33, _⟩ => ⟨S1x1024, .f32⟩
  | .hbm, ⟨34, _⟩ => ⟨S1024x1024, .bf16⟩
  | .hbm, ⟨35, _⟩ => ⟨S1x66049, .f32⟩
  | .hbm, ⟨36, _⟩ => ⟨S1024x66049, .f32⟩
  | .hbm, ⟨37, _⟩ => ⟨S1024x257x257, .f32⟩
  | .local _ .vmem, ⟨0, _⟩ => ⟨S512x128, .bf16⟩
  | .local _ .vmem, ⟨1, _⟩ => ⟨S512x128, .bf16⟩
  | .local _ .vmem, ⟨2, _⟩ => ⟨S128x256, .bf16⟩
  | .local _ .vmem, ⟨3, _⟩ => ⟨S1x256, .f32⟩
  | .local _ .vmem, ⟨4, _⟩ => ⟨S256x512, .bf16⟩
  | .local _ .vmem, ⟨5, _⟩ => ⟨S1x512, .f32⟩
  | .local _ .vmem, ⟨6, _⟩ => ⟨S512x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1280, .f32⟩
  | .local _ .vmem, ⟨12, _⟩ => ⟨S1024x1280, .f32⟩
  | .local _ .vmem, ⟨13, _⟩ => ⟨S1x1280, .f32⟩
  | .local _ .vmem, ⟨14, _⟩ => ⟨S1x1280, .f32⟩
  | .local _ .vmem, ⟨15, _⟩ => ⟨S1024x1280, .f32⟩
  | .local _ .vmem, ⟨16, _⟩ => ⟨S1024x1280, .f32⟩
  | _, _ => ⟨S1024x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![52], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  concatenates_S1024x100_S1024x16_S1024x116_d1 : Shape.Concatenates [S1024x100, S1024x16] S1024x116 1
  pads_S1024x116_S1024x128_000_0120 : S1024x116.Pads (![0, 0] : Fin 2 → Nat) ![0, 12] ![0, 0] S1024x128
  h_S_ : 0 < S_.numel
  bitsLt_bf16_f32 : FTy.bits .bf16 < FTy.bits .f32
  pads_S116x256_S128x256_0120_000 : S116x256.Pads (![0, 0] : Fin 2 → Nat) ![12, 0] ![0, 0] S128x256
  shapeCasts_S256_S1x256 : S256.ShapeCasts S1x256
  shapeCasts_S512_S1x512 : S512.ShapeCasts S1x512
  shapeCasts_S1024_S1x1024 : S1024.ShapeCasts S1x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S66049_S1x66049 : S66049.ShapeCasts S1x66049
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1280_S1024x1280_0_0 : ∀ a, (![0, 0] : Fin 2 → Nat) a + S1024x1280.size a ≤ S1024x1280.size a
  h_S1024x1280 : 0 < S1024x1280.numel
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  shapeCasts_S1024x66049_S1024x257x257 : S1024x66049.ShapeCasts S1024x257x257
  gather_S8x16_S1024x1_S1024x16_1_0_n_n_0_1_116_wf : GatherDims.WF S8x16 S1024x1 S1024x16 [1] [0] [] [0] [] 1 ![1, 16]
  dot_S512x128_S128x256_S512x256_1_0_0_1_n_n_wf : DotDims.WF S512x128 S128x256 S512x256 [1] [0] [0] [1] [] []
  dot_S512x256_S256x512_S512x512_1_0_0_1_n_n_wf : DotDims.WF S512x256 S256x512 S512x512 [1] [0] [0] [1] [] []
  dot_S512x512_S512x1024_S512x1024_1_0_0_1_n_n_wf : DotDims.WF S512x512 S512x1024 S512x1024 [1] [0] [0] [1] [] []
  dot_S1024x1024_S1024x1280_S1024x1280_1_0_0_1_n_n_wf : DotDims.WF S1024x1024 S1024x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1024x128.size a
  hwx0_0 : ∀ i : grid0.Coords, EltTy.bits .bf16 = 32 ∨ (Rect.block (s := S1024x128) S512x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S1024x1024.size a
  hwx0_7 : ∀ i : grid0.Coords, EltTy.bits .bf16 = 32 ∨ (Rect.block (s := S1024x1024) S512x1024.size (cc0_transform_7 i) (hinb0_7 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .bf16 = 32 ∨ (Rect.block (s := S1024x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x1280.size a < S1024x66049.size a
  hwx1_1 : ∀ i : grid1.Coords, EltTy.bits .f32 = 32 ∨ (Rect.unit (s := S1024x66049) (fun a => cc1_transform_1 i a * S1024x1280.size a) (fun a => (Pipeline.Clip.of (cc1_transform_1 i a) (S1024x1280.size a) (S1024x66049.size a)).extent (S1024x1280.size a)) fun a => Pipeline.Clip.inb (Pipeline.Clip.ok_of (hstart1_1 i a))).WholeWords (EltTy.packing .f32)
  hwxs1_1 : ∀ i : grid1.Coords, EltTy.bits .f32 = 32 ∨ (Rect.unit (s := S1024x1280) (fun _ => 0) (fun a => (Pipeline.Clip.of (cc1_transform_1 i a) (S1024x1280.size a) (S1024x66049.size a)).extent (S1024x1280.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x1280.size a < S1x66049.size a
  hwx1_2 : ∀ i : grid1.Coords, EltTy.bits .f32 = 32 ∨ (Rect.unit (s := S1x66049) (fun a => cc1_transform_2 i a * S1x1280.size a) (fun a => (Pipeline.Clip.of (cc1_transform_2 i a) (S1x1280.size a) (S1x66049.size a)).extent (S1x1280.size a)) fun a => Pipeline.Clip.inb (Pipeline.Clip.ok_of (hstart1_2 i a))).WholeWords (EltTy.packing .f32)
  hwxs1_2 : ∀ i : grid1.Coords, EltTy.bits .f32 = 32 ∨ (Rect.unit (s := S1x1280) (fun _ => 0) (fun a => (Pipeline.Clip.of (cc1_transform_2 i a) (S1x1280.size a) (S1x66049.size a)).extent (S1x1280.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x1280.size a < S1024x66049.size a
  hwx1_3 : ∀ i : grid1.Coords, EltTy.bits .f32 = 32 ∨ (Rect.unit (s := S1024x66049) (fun a => cc1_transform_3 i a * S1024x1280.size a) (fun a => (Pipeline.Clip.of (cc1_transform_3 i a) (S1024x1280.size a) (S1024x66049.size a)).extent (S1024x1280.size a)) fun a => Pipeline.Clip.inb (Pipeline.Clip.ok_of (hstart1_3 i a))).WholeWords (EltTy.packing .f32)
  hwxs1_3 : ∀ i : grid1.Coords, EltTy.bits .f32 = 32 ∨ (Rect.unit (s := S1024x1280) (fun _ => 0) (fun a => (Pipeline.Clip.of (cc1_transform_3 i a) (S1024x1280.size a) (S1024x66049.size a)).extent (S1024x1280.size a)) fun a => (Nat.zero_add _).trans_le (Pipeline.Clip.extent_le (Pipeline.Clip.ok_of (hstart1_3 i a)))).WholeWords (EltTy.packing .f32)

variable [Facts₀]

def gather_S8x16_S1024x1_S1024x16_1_0_n_n_0_1_116 : GatherDims S8x16 S1024x1 S1024x16 where
  offsetDims := [1]
  collapsedSliceDims := [0]
  operandBatchingDims := []
  startIndicesBatchingDims := []
  startIndexMap := [0]
  indexVectorDim := 1
  sliceSizes := ![1, 16]
  wf := gather_S8x16_S1024x1_S1024x16_1_0_n_n_0_1_116_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S1024x1024_S1024x1280_S1024x1280_1_0_0_1_n_n : DotDims S1024x1024 S1024x1280 S1024x1280 where
  lhsContracting := [1]
  rhsContracting := [0]
  lhsNonContracting := [0]
  rhsNonContracting := [1]
  lhsBatch := []
  rhsBatch := []
  wf := dot_S1024x1024_S1024x1280_S1024x1280_1_0_0_1_n_n_wf

abbrev win0_0 : Pipeline.Window sig grid0 :=
  Pipeline.Window.ofSpec (Memref.whole main_v9) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg9) S1024x1280.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v18) S1x1280.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v19) S1024x1280.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x100 : Shape := ⟨2, ![1024, 100]⟩
abbrev S1024 : Shape := ⟨1, ![1024]⟩
abbrev S8x16 : Shape := ⟨2, ![8, 16]⟩
abbrev S116x256 : Shape := ⟨2, ![116, 256]⟩
abbrev S256 : Shape := ⟨1, ![256]⟩
abbrev S256x512 : Shape := ⟨2, ![256, 512]⟩
abbrev S512 : Shape := ⟨1, ![512]⟩
abbrev S512x1024 : Shape := ⟨2, ![512, 1024]⟩
abbrev S1024x66049 : Shape := ⟨2, ![1024, 66049]⟩
abbrev S66049 : Shape := ⟨1, ![66049]⟩
abbrev S_ : Shape := ⟨0, ![]⟩
abbrev S1024x1 : Shape := ⟨2, ![1024, 1]⟩
abbrev S1024x16 : Shape := ⟨2, ![1024, 16]⟩
abbrev S1024x116 : Shape := ⟨2, ![1024, 116]⟩
abbrev S1024x256 : Shape := ⟨2, ![1024, 256]⟩
abbrev S1x256 : Shape := ⟨2, ![1, 256]⟩
abbrev S1024x512 : Shape := ⟨2, ![1024, 512]⟩
abbrev S1x512 : Shape := ⟨2, ![1, 512]⟩
abbrev S1024x1024 : Shape := ⟨2, ![1024, 1024]⟩
abbrev S1x1024 : Shape := ⟨2, ![1, 1024]⟩
abbrev S1x66049 : Shape := ⟨2, ![1, 66049]⟩
abbrev S1024x257x257 : Shape := ⟨3, ![1024, 257, 257]⟩

abbrev nBuf : Space → Nat
  | .hbm => 55
  | .vmem => 0
  | .smem => 0
  | _ => 0

abbrev bufTy : (tb : Table) → Fin (tcTables nBuf tb) → BufTy
  | .hbm, ⟨0, _⟩ => ⟨S1024x100, .f32⟩
  | .hbm, ⟨1, _⟩ => ⟨S1024, .i32⟩
  | .hbm, ⟨2, _⟩ => ⟨S8x16, .f32⟩
  | .hbm, ⟨3, _⟩ => ⟨S116x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x1024, .f32⟩
  | .hbm, ⟨8, _⟩ => ⟨S1024, .f32⟩
  | .hbm, ⟨9, _⟩ => ⟨S1024x66049, .f32⟩
  | .hbm, ⟨10, _⟩ => ⟨S66049, .f32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1024x16, .f32⟩
  | .hbm, ⟨20, _⟩ => ⟨S1024x116, .f32⟩
  | .hbm, ⟨21, _⟩ => ⟨S1024x256, .f32⟩
  | .hbm, ⟨22, _⟩ => ⟨S1x256, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x512, .f32⟩
  | .hbm, ⟨29, _⟩ => ⟨S1x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x1024, .f32⟩
  | .hbm, ⟨36, _⟩ => ⟨S1x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1024x66049, .f32⟩
  | .hbm, ⟨43, _⟩ => ⟨S1x66049, .f32⟩
  | .hbm, ⟨44, _⟩ => ⟨S1024x66049, .f32⟩
  | .hbm, ⟨45, _⟩ => ⟨S1024x66049, .f32⟩
  | .hbm, ⟨46, _⟩ => ⟨S1024x66049, .f32⟩
  | .hbm, ⟨47, _⟩ => ⟨S1024x66049, .f32⟩
  | .hbm, ⟨48, _⟩ => ⟨S_, .f32⟩
  | .hbm, ⟨49, _⟩ => ⟨S1024x66049, .f32⟩
  | .hbm, ⟨50, _⟩ => ⟨S1024x66049, .f32⟩
  | .hbm, ⟨51, _⟩ => ⟨S_, .f32⟩
  | .hbm, ⟨52, _⟩ => ⟨S1024x66049, .f32⟩
  | .hbm, ⟨53, _⟩ => ⟨S1024x66049, .f32⟩
  | .hbm, ⟨54, _⟩ => ⟨S1024x257x257, .f32⟩
  | _, _ => ⟨S1024x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_cst : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call2_cst : Ref sig .tc := ⟨.hbm, 39, rfl⟩
abbrev main_call2_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_cst_1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  concatenates_S1024x100_S1024x16_S1024x116_d1 : Shape.Concatenates [S1024x100, S1024x16] S1024x116 1
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S66049_S1x66049_1 : S66049.BroadcastsInDim S1x66049 (![1] : Fin 1 → Fin S1x66049.rank)
  bcast_S1x66049_S1024x66049_0_1 : S1x66049.BroadcastsInDim S1024x66049 (![0, 1] : Fin 2 → Fin S1024x66049.rank)
  bcast_S_S1024x66049 : S_.BroadcastsInDim S1024x66049 (![] : Fin 0 → Fin S1024x66049.rank)
  shapeCasts_S1024x66049_S1024x257x257 : S1024x66049.ShapeCasts S1024x257x257
  gather_S8x16_S1024x1_S1024x16_1_0_n_n_0_1_116_wf : GatherDims.WF S8x16 S1024x1 S1024x16 [1] [0] [] [0] [] 1 ![1, 16]
  dot_S1024x116_S116x256_S1024x256_1_0_0_1_n_n_wf : DotDims.WF S1024x116 S116x256 S1024x256 [1] [0] [0] [1] [] []
  dot_S1024x256_S256x512_S1024x512_1_0_0_1_n_n_wf : DotDims.WF S1024x256 S256x512 S1024x512 [1] [0] [0] [1] [] []
  dot_S1024x512_S512x1024_S1024x1024_1_0_0_1_n_n_wf : DotDims.WF S1024x512 S512x1024 S1024x1024 [1] [0] [0] [1] [] []
  dot_S1024x1024_S1024x66049_S1024x66049_1_0_0_1_n_n_wf : DotDims.WF S1024x1024 S1024x66049 S1024x66049 [1] [0] [0] [1] [] []

variable [Facts₀]

def gather_S8x16_S1024x1_S1024x16_1_0_n_n_0_1_116 : GatherDims S8x16 S1024x1 S1024x16 where
  offsetDims := [1]
  collapsedSliceDims := [0]
  operandBatchingDims := []
  startIndicesBatchingDims := []
  startIndexMap := [0]
  indexVectorDim := 1
  sliceSizes := ![1, 16]
  wf := gather_S8x16_S1024x1_S1024x16_1_0_n_n_0_1_116_wf
def dot_S1024x116_S116x256_S1024x256_1_0_0_1_n_n : DotDims S1024x116 S116x256 S1024x256 where
  lhsContracting := [1]
  rhsContracting := [0]
  lhsNonContracting := [0]
  rhsNonContracting := [1]
  lhsBatch := []
  rhsBatch := []
  wf := dot_S1024x116_S116x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x66049_S1024x66049_1_0_0_1_n_n : DotDims S1024x1024 S1024x66049 S1024x66049 where
  lhsContracting := [1]
  rhsContracting := [0]
  lhsNonContracting := [0]
  rhsNonContracting := [1]
  lhsBatch := []
  rhsBatch := []
  wf := dot_S1024x1024_S1024x66049_S1024x66049_1_0_0_1_n_n_wf

class Facts : Prop extends Facts₀ where

variable [Facts]
-- ==== Proof.RefFrame.lean ====
/-
  The reference program launches no kernel: it is a straight line of host operations, so every weakly fair
  execution of it is that one sequence of operations. Its generated run says the execution ends, faults nowhere,
  and leaves each result at the composed term of the arguments and every argument array as it was launched;
  the frame claim is that run with the statement about the result dropped.
-/
import proofs.«157737_j67053029425158_2_alg».proof.Defs
import proofs.«157737_j67053029425158_2_alg».proof.Proof.Gen.ReferenceIdeal
import proofs.«157737_j67053029425158_2_alg».proof.Proof.Gen.ReferenceIdeal.Run
import proofs.«157737_j67053029425158_2_alg».proof.Proof.Gen.ReferenceIdeal.Read
import proofs.«157737_j67053029425158_2_alg».proof.Proof.Gen.Pre_finite_inputs

noncomputable section

namespace Cert.Proof.RefFrame

open Idealize.ShloMosaic Idealize.SL.Sem

/-- The reference runs to the end without a fault and its argument arrays end as launched. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Trunk.lean ====
/-
  The first kernel region: the three dense layers. Its grid has two points; point t works on rows 512·t … 512·t + 511
  of the padded input. Every window but the input rows' and the result rows' is the whole of its array (the three weight
  matrices and the three bias rows), fetched once and found in place at the second point. The body reads the eight
  staging buffers whole and stores one value, the third hidden layer of its 512 rows, whole into the result's buffer.
  This module says what each staging buffer holds when the body is entered and when it returns, at any float
  interpretation, and proves that the body, run on such buffers, returns them so.
-/
import proofs.«157737_j67053029425158_2_alg».proof.Proof.Gen.KernelIdeal.Skeleton
import proofs.«157737_j67053029425158_2_alg».proof.Proof.Gen.KernelIdeal.Launch
import proofs.«157737_j67053029425158_2_alg».proof.Proof.Gen.KernelIdeal.Points
import Idealize.ShloMosaic.Lib.Pipeline.Kit
import Idealize.ShloMosaic.Lib.Pipeline.Frame
import Idealize.ShloMosaic.Lib.Pipeline.Value
import Idealize.ShloMosaic.Lib.Tactic

noncomputable section

namespace Cert.KernelIdeal.Trunk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the region is entered: a parameter here, fixed by the run
variable (V : (c : Dev nD) → (b : Ref sig .tc) → Buf (Elt F) ((c : Thread nD τ).loc b))

/-! ## One run of the body on whole buffers -/

theorem zeros2 : (![0, 0] : Fin 2 → Nat) = fun _ => 0 := funext fun a => by fin_cases a <;> rfl

set_option maxHeartbeats 1000000 in
/-- The body on eight whole staging buffers, the seven inputs' holding x1 … x7 and the result's anything: it returns the
    inputs' unchanged and the result's holding the third hidden layer computed from x1 … x7. -/
theorem body_run (c : Dev nD) (E : Set ℕ) (i : grid0.Coords)
    (a1 : Memref sig .tc .vmem S512x128 .bf16) (h1 : a1.IsWhole) (a2 : Memref sig .tc .vmem S128x256 .bf16) (h2 : a2.IsWhole)
    (a3 : Memref sig .tc .vmem S1x256 .f32) (h3 : a3.IsWhole) (a4 : Memref sig .tc .vmem S256x512 .bf16) (h4 : a4.IsWhole)
    (a5 : Memref sig .tc .vmem S1x512 .f32) (h5 : a5.IsWhole) (a6 : Memref sig .tc .vmem S512x1024 .bf16) (h6 : a6.IsWhole)
    (a7 : Memref sig .tc .vmem S1x1024 .f32) (h7 : a7.IsWhole) (a8 : Memref sig .tc .vmem S512x1024 .bf16) (h8 : a8.IsWhole)
    (x1 : Vec F S512x128 .bf16) (x2 : Vec F S128x256 .bf16) (x3 : Vec F S1x256 .f32) (x4 : Vec F S256x512 .bf16)
    (x5 : Vec F S1x512 .f32) (x6 : Vec F S512x1024 .bf16) (x7 : Vec F S1x1024 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ (∃ d, owns (c : Thread nD τ) a8 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7 ∗ owns (c : Thread nD τ) a8 fullShare (k0_pay1 x1 x2 x3 x4 x5 x6 x7)) -∗ K ⟨⟩))
      ⊢ wp frame (wpE (defs₀ (F := F)) Variants.none c none) E (cc0__trunk_kernel i a1 h1 a2 h2 a3 h3 a4 h4 a5 h5 a6 h6 a7 h7 a8 h8) K := by
  simp only [cc0__trunk_kernel_eq_skeleton]; unfold cc0__trunk_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e1 e2 e3 e4 e5 e6 e7
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  -- one store through the whole buffer, read back, is its payload; a load through a whole buffer reads its contents
  rw [View.read_writes_eq_canon _ _ _ (View.cover_of_tiled _ S512x1024.size (by rfl)), View.canon_unit_zero zeros2]
  simp only [View.readAt_eq_ld, View.ld_unit_zero (S := S512x128) zeros2, View.ld_unit_zero (S := S128x256) zeros2,
    View.ld_unit_zero (S := S1x256) zeros2, View.ld_unit_zero (S := S256x512) zeros2, View.ld_unit_zero (S := S1x512) zeros2,
    View.ld_unit_zero (S := S512x1024) zeros2, View.ld_unit_zero (S := S1x1024) zeros2]

/-! ## What the buffers hold, point by point -/

/-- Window w's block of its array at point t, as the region finds the array. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The third hidden layer of the 512 rows of point t, from the seven input blocks there. -/
def layer3 (c : Dev nD) (t : Fin cfg0.N) : Vec F S512x1024 .bf16 :=
  k0_pay1 (blockAt V c 0 t) (blockAt V c 1 t) (blockAt V c 2 t) (blockAt V c 3 t) (blockAt V c 4 t) (blockAt V c 5 t) (blockAt V c 6 t)

/-- The region's proof data on core c: the arrays as found; after the body each input's buffer at its block and the
    result's at the computed layer; the invariant is the scoped buffers no window stages and the generator register, which
    the body does not touch; nothing owed, whole shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => layer3 V c t
  Φ _ := Pipeline.ΦA spec0 c
  q _ := fullShare
  owed _ := 0

theorem entry_eq (c : Dev nD) (w : Fin cfg0.W) : (dat V c).A w = V c (Pipeline.arrRef spec0 w) := by dsimp only [dat]

theorem left_0 (c : Dev nD) (t : Fin cfg0.N) : (dat V c).after 0 t = blockAt V c 0 t := by dsimp only [dat]
theorem left_1 (c : Dev nD) (t : Fin cfg0.N) : (dat V c).after 1 t = blockAt V c 1 t := by dsimp only [dat]
theorem left_2 (c : Dev nD) (t : Fin cfg0.N) : (dat V c).after 2 t = blockAt V c 2 t := by dsimp only [dat]
theorem left_3 (c : Dev nD) (t : Fin cfg0.N) : (dat V c).after 3 t = blockAt V c 3 t := by dsimp only [dat]
theorem left_4 (c : Dev nD) (t : Fin cfg0.N) : (dat V c).after 4 t = blockAt V c 4 t := by dsimp only [dat]
theorem left_5 (c : Dev nD) (t : Fin cfg0.N) : (dat V c).after 5 t = blockAt V c 5 t := by dsimp only [dat]
theorem left_6 (c : Dev nD) (t : Fin cfg0.N) : (dat V c).after 6 t = blockAt V c 6 t := by dsimp only [dat]
theorem left_7 (c : Dev nD) (t : Fin cfg0.N) : (dat V c).after 7 t = layer3 V c t := by dsimp only [dat]

/-! An input's buffer holds its block whenever the body runs: fetched at this point, or fetched at the first point and
    left in place since (its block index does not move). -/
theorem found_0 (c : Dev nD) (t : Fin cfg0.N) (d) : (dat V c).before 0 t d = blockAt V c 0 t :=
  ((dat V c).before_in_eq_fetched 0 rfl (fun _ => rfl) (fun _ _ _ => rfl)
    (fun t => by rw [left_0]; unfold Dat.blockOf blockAt; rw [entry_eq]; try rfl) t d).trans
    (by unfold Dat.fetched Dat.blockOf blockAt; rw [entry_eq]; try rfl)
theorem found_1 (c : Dev nD) (t : Fin cfg0.N) (d) : (dat V c).before 1 t d = blockAt V c 1 t :=
  ((dat V c).before_in_eq_fetched 1 rfl (fun _ => rfl) (fun _ _ _ => rfl)
    (fun t => by rw [left_1]; unfold Dat.blockOf blockAt; rw [entry_eq]; try rfl) t d).trans
    (by unfold Dat.fetched Dat.blockOf blockAt; rw [entry_eq]; try rfl)
theorem found_2 (c : Dev nD) (t : Fin cfg0.N) (d) : (dat V c).before 2 t d = blockAt V c 2 t :=
  ((dat V c).before_in_eq_fetched 2 rfl (fun _ => rfl) (fun _ _ _ => rfl)
    (fun t => by rw [left_2]; unfold Dat.blockOf blockAt; rw [entry_eq]; try rfl) t d).trans
    (by unfold Dat.fetched Dat.blockOf blockAt; rw [entry_eq]; try rfl)
theorem found_3 (c : Dev nD) (t : Fin cfg0.N) (d) : (dat V c).before 3 t d = blockAt V c 3 t :=
  ((dat V c).before_in_eq_fetched 3 rfl (fun _ => rfl) (fun _ _ _ => rfl)
    (fun t => by rw [left_3]; unfold Dat.blockOf blockAt; rw [entry_eq]; try rfl) t d).trans
    (by unfold Dat.fetched Dat.blockOf blockAt; rw [entry_eq]; try rfl)
theorem found_4 (c : Dev nD) (t : Fin cfg0.N) (d) : (dat V c).before 4 t d = blockAt V c 4 t :=
  ((dat V c).before_in_eq_fetched 4 rfl (fun _ => rfl) (fun _ _ _ => rfl)
    (fun t => by rw [left_4]; unfold Dat.blockOf blockAt; rw [entry_eq]; try rfl) t d).trans
    (by unfold Dat.fetched Dat.blockOf blockAt; rw [entry_eq]; try rfl)
theorem found_5 (c : Dev nD) (t : Fin cfg0.N) (d) : (dat V c).before 5 t d = blockAt V c 5 t :=
  ((dat V c).before_in_eq_fetched 5 rfl (fun _ => rfl) (fun _ _ _ => rfl)
    (fun t => by rw [left_5]; unfold Dat.blockOf blockAt; rw [entry_eq]; try rfl) t d).trans
    (by unfold Dat.fetched Dat.blockOf blockAt; rw [entry_eq]; try rfl)
theorem found_6 (c : Dev nD) (t : Fin cfg0.N) (d) : (dat V c).before 6 t d = blockAt V c 6 t :=
  ((dat V c).before_in_eq_fetched 6 rfl (fun _ => rfl) (fun _ _ _ => rfl)
    (fun t => by rw [left_6]; unfold Dat.blockOf blockAt; rw [entry_eq]; try rfl) t d).trans
    (by unfold Dat.fetched Dat.blockOf blockAt; rw [entry_eq]; try rfl)

/-- The result's buffer is found at contents nothing names: every point writes its block back. -/
theorem found_7 (c : Dev nD) (t : Fin cfg0.N) (d) : (dat V c).before 7 t d = d :=
  (dat V c).before_out_reset 7 rfl t
    (by by_cases h : t.val = 0
        · exact .inl h
        · exact .inr ⟨h, flush0_7 _⟩) d

/-! ## The obligation at every point -/

/-- The body at point t, entered with each input's buffer at its block and the result's at anything, returns the inputs'
    as they were and the result's at the computed layer; the invariant and the tallies pass through unread. -/
theorem at_point (c : Dev nD) (t : Fin cfg0.N) :
    iprop((dat V c).Φ t.castSucc ∗ (dat V c).owesAt () t.castSucc
        ∗ (∃ d : S512x128.Idx → Elt F .bf16, owns (c : Thread nD τ) (st0_0 t) fullShare (blockAt V c 0 t))
        ∗ (∃ d : S128x256.Idx → Elt F .bf16, owns (c : Thread nD τ) (st0_1 t) fullShare (blockAt V c 1 t))
        ∗ (∃ d : S1x256.Idx → Elt F .f32, owns (c : Thread nD τ) (st0_2 t) fullShare (blockAt V c 2 t))
        ∗ (∃ d : S256x512.Idx → Elt F .bf16, owns (c : Thread nD τ) (st0_3 t) fullShare (blockAt V c 3 t))
        ∗ (∃ d : S1x512.Idx → Elt F .f32, owns (c : Thread nD τ) (st0_4 t) fullShare (blockAt V c 4 t))
        ∗ (∃ d : S512x1024.Idx → Elt F .bf16, owns (c : Thread nD τ) (st0_5 t) fullShare (blockAt V c 5 t))
        ∗ (∃ d : S1x1024.Idx → Elt F .f32, owns (c : Thread nD τ) (st0_6 t) fullShare (blockAt V c 6 t))
        ∗ (∃ d : S512x1024.Idx → Elt F .bf16, owns (c : Thread nD τ) (st0_7 t) fullShare d))
      ⊢ wp frame (wpE (defs₀ (F := F)) Variants.none c none) Set.univ (bodyAt0 t) (fun _ =>
          iprop((dat V c).Φ t.succ ∗ (dat V c).owesAt () t.succ
            ∗ owns (c : Thread nD τ) (st0_0 t) fullShare (blockAt V c 0 t)
            ∗ owns (c : Thread nD τ) (st0_1 t) fullShare (blockAt V c 1 t)
            ∗ owns (c : Thread nD τ) (st0_2 t) fullShare (blockAt V c 2 t)
            ∗ owns (c : Thread nD τ) (st0_3 t) fullShare (blockAt V c 3 t)
            ∗ owns (c : Thread nD τ) (st0_4 t) fullShare (blockAt V c 4 t)
            ∗ owns (c : Thread nD τ) (st0_5 t) fullShare (blockAt V c 5 t)
            ∗ owns (c : Thread nD τ) (st0_6 t) fullShare (blockAt V c 6 t)
            ∗ owns (c : Thread nD τ) (st0_7 t) fullShare (layer3 V c t))) := by
  rw [show (dat V c).Φ t.succ = (dat V c).Φ t.castSucc from rfl,
    show (dat V c).owesAt () t.succ = (dat V c).owesAt () t.castSucc from rfl]
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ _ _ _ _ _ _ _ _ _ _ _ _ _ _ _ _ _ (blockAt V c 0 t) (blockAt V c 1 t) (blockAt V c 2 t)
    (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) :
    BodyObligation (dat (F := F) V c) (defs₀ (F := F)) Variants.none () Set.univ := fun t => by
  rw [bigSep_W0, bigSep_W0]
  simp only [found_0, found_1, found_2, found_3, found_4, found_5, found_6, found_7,
    left_0, left_1, left_2, left_3, left_4, left_5, left_6, left_7]
  exact at_point V c t

end Cert.KernelIdeal.Trunk

end
-- ==== Proof.Head.lean ====
/-
  The second kernel region: the output head. Its grid has 52 points; point t works on columns 1280·t … 1280·t + 1279 of
  the 66049 output columns, so the last block overhangs the arrays by 511 columns: its fetches fill only the leading 769
  columns of a staging buffer and leave the rest at words nothing names, and its write-back writes only those 769
  columns. The hidden layer (all 1024 rows, all 1024 columns) is one block, fetched once. The body reads the three
  input buffers whole and stores one value whole into the result's buffer: the logistic of the product with the
  weight block plus the bias block.
-/
import proofs.«157737_j67053029425158_2_alg».proof.Proof.Gen.KernelIdeal.Skeleton
import proofs.«157737_j67053029425158_2_alg».proof.Proof.Gen.KernelIdeal.Launch
import proofs.«157737_j67053029425158_2_alg».proof.Proof.Gen.KernelIdeal.Points
import Idealize.ShloMosaic.Lib.Pipeline.Kit
import Idealize.ShloMosaic.Lib.Pipeline.Frame
import Idealize.ShloMosaic.Lib.Pipeline.Value
import Idealize.ShloMosaic.Lib.Tactic

noncomputable section

namespace Cert.KernelIdeal.Head

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the region is entered: a parameter here, fixed by the run
variable (V : (c : Dev nD) → (b : Ref sig .tc) → Buf (Elt F) ((c : Thread nD τ).loc b))

/-! ## One run of the body on whole buffers -/

theorem zeros2 : (![0, 0] : Fin 2 → Nat) = fun _ => 0 := funext fun a => by fin_cases a <;> rfl

set_option maxHeartbeats 1000000 in
/-- The body on four whole staging buffers, the three inputs' holding x1, x2, x3 and the result's anything: it returns the
    inputs' unchanged and the result's holding the head's value computed from x1, x2, x3. -/
theorem body_run (c : Dev nD) (E : Set ℕ) (i : grid1.Coords)
    (a1 : Memref sig .tc .vmem S1024x1024 .bf16) (h1 : a1.IsWhole) (a2 : Memref sig .tc .vmem S1024x1280 .f32) (h2 : a2.IsWhole)
    (a3 : Memref sig .tc .vmem S1x1280 .f32) (h3 : a3.IsWhole) (a4 : Memref sig .tc .vmem S1024x1280 .f32) (h4 : a4.IsWhole)
    (x1 : Vec F S1024x1024 .bf16) (x2 : Vec F S1024x1280 .f32) (x3 : Vec F S1x1280 .f32) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) a4 fullShare d)
        ∗ (iprop(owns (c : Thread nD τ) a1 fullShare x1 ∗ owns (c : Thread nD τ) a2 fullShare x2 ∗ owns (c : Thread nD τ) a3 fullShare x3
            ∗ owns (c : Thread nD τ) a4 fullShare (k1_pay1 x1 x2 x3)) -∗ K ⟨⟩))
      ⊢ wp frame (wpE (defs₀ (F := F)) Variants.none c none) E (cc1__head_kernel i a1 h1 a2 h2 a3 h3 a4 h4) K := by
  simp only [cc1__head_kernel_eq_skeleton]; unfold cc1__head_kernel_skel
  unfold owns
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (View.cover_of_tiled _ S1024x1280.size (by rfl)), View.canon_unit_zero zeros2]
  simp only [View.readAt_eq_ld, View.ld_unit_zero (S := S1024x1024) zeros2, View.ld_unit_zero (S := S1024x1280) zeros2,
    View.ld_unit_zero (S := S1x1280) zeros2]

/-! ## What the buffers hold, point by point -/

/-- Window w's block of its array at point t, the part of it inside the array. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The zero word, with which a block is filled out past the array's end where a definite value is wanted. -/
def zeroWord : Elt F .f32 := Scalar.ofBits .f32 0#32

/-- The weight block and the bias block at point t filled out with zeros to the staging buffers' size. -/
def weights (c : Dev nD) (t : Fin cfg1.N) : Vec F S1024x1280 .f32 :=
  win1_1.fill (grid1.coords t) (fun _ => zeroWord) (blockAt V c 1 t)
def bias (c : Dev nD) (t : Fin cfg1.N) : Vec F S1x1280 .f32 :=
  win1_2.fill (grid1.coords t) (fun _ => zeroWord) (blockAt V c 2 t)

/-- The head's value on the 1280 columns of point t from the hidden layer and those two. -/
def scores (c : Dev nD) (t : Fin cfg1.N) : Vec F S1024x1280 .f32 :=
  k1_pay1 (blockAt V c 0 t) (weights V c t) (bias V c t)

def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => weights V c t
    | ⟨2, _⟩ => bias V c t
    | ⟨3, _⟩ => scores V c t
  Φ _ := Pipeline.ΦA spec1 c
  q _ := fullShare
  owed _ := 0

theorem entry_eq (c : Dev nD) (w : Fin cfg1.W) : (dat V c).A w = V c (Pipeline.arrRef spec1 w) := by dsimp only [dat]
theorem left_0 (c : Dev nD) (t : Fin cfg1.N) : (dat V c).after 0 t = blockAt V c 0 t := by dsimp only [dat]
theorem left_1 (c : Dev nD) (t : Fin cfg1.N) : (dat V c).after 1 t = weights V c t := by dsimp only [dat]
theorem left_2 (c : Dev nD) (t : Fin cfg1.N) : (dat V c).after 2 t = bias V c t := by dsimp only [dat]
theorem left_3 (c : Dev nD) (t : Fin cfg1.N) : (dat V c).after 3 t = scores V c t := by dsimp only [dat]

theorem found_0 (c : Dev nD) (t : Fin cfg1.N) (d) : (dat V c).before 0 t d = blockAt V c 0 t :=
  ((dat V c).before_in_eq_fetched 0 rfl (fun _ => rfl) (fun _ _ _ => rfl)
    (fun t => by rw [left_0]; unfold Dat.blockOf blockAt; rw [entry_eq]; try rfl) t d).trans
    (by unfold Dat.fetched Dat.blockOf blockAt; rw [entry_eq]; try rfl)

theorem found_1 (c : Dev nD) (t : Fin cfg1.N) (d) :
    (dat V c).before 1 t d = win1_1.fill (grid1.coords t) d (blockAt V c 1 t) := by
  unfold Dat.before; rw [if_pos (fetch1_1 t)]; unfold Dat.fetched Dat.blockOf blockAt; rw [entry_eq]

theorem found_2 (c : Dev nD) (t : Fin cfg1.N) (d) :
    (dat V c).before 2 t d = win1_2.fill (grid1.coords t) d (blockAt V c 2 t) := by
  unfold Dat.before; rw [if_pos (fetch1_2 t)]; unfold Dat.fetched Dat.blockOf blockAt; rw [entry_eq]

theorem found_3 (c : Dev nD) (t : Fin cfg1.N) (d) : (dat V c).before 3 t d = d :=
  (dat V c).before_out_reset 3 rfl t
    (by by_cases h : t.val = 0
        · exact .inl h
        · exact .inr ⟨h, flush1_3 _⟩) d

/-- The result window forgotten, the others kept. -/
abbrev forgetResult : Fin cfg1.W → Bool := fun | 0 => false | 1 => false | 2 => false | 3 => true | ⟨_ + 4, h⟩ => absurd h (Nat.not_lt.2 (Nat.le_add_left _ _))

theorem cut_weights (c : Dev nD) (t : Fin cfg1.N) : win1_1.cut (grid1.coords t) (weights V c t) = blockAt V c 1 t :=
  win1_1.cut_fill _ _ _
theorem cut_bias (c : Dev nD) (t : Fin cfg1.N) : win1_2.cut (grid1.coords t) (bias V c t) = blockAt V c 2 t :=
  win1_2.cut_fill _ _ _

/-- The body at point t with the result's buffer at contents nothing names, before and after: the hidden layer's buffer
    holds its block, the weight and bias buffers their blocks filled out by whatever the buffers held past the array's
    end, and the body hands all three back as it found them. -/
theorem at_point_forgetting (c : Dev nD) (t : Fin cfg1.N) :
    iprop((dat V c).Φ t.castSucc ∗ (dat V c).owesAt () t.castSucc
        ∗ (∃ d : S1024x1024.Idx → Elt F .bf16, owns (c : Thread nD τ) (st1_0 t) fullShare (blockAt V c 0 t))
        ∗ (∃ d, owns (c : Thread nD τ) (st1_1 t) fullShare (win1_1.fill (grid1.coords t) d (blockAt V c 1 t)))
        ∗ (∃ d, owns (c : Thread nD τ) (st1_2 t) fullShare (win1_2.fill (grid1.coords t) d (blockAt V c 2 t)))
        ∗ (∃ X, owns (c : Thread nD τ) (st1_3 t) fullShare X))
      ⊢ wp frame (wpE (defs₀ (F := F)) Variants.none c none) Set.univ (bodyAt1 t) (fun _ =>
          iprop((dat V c).Φ t.succ ∗ (dat V c).owesAt () t.succ
            ∗ owns (c : Thread nD τ) (st1_0 t) fullShare (blockAt V c 0 t)
            ∗ (∃ d, owns (c : Thread nD τ) (st1_1 t) fullShare
                (win1_1.fill (grid1.coords t) d (win1_1.cut (grid1.coords t) (weights V c t))))
            ∗ (∃ d, owns (c : Thread nD τ) (st1_2 t) fullShare
                (win1_2.fill (grid1.coords t) d (win1_2.cut (grid1.coords t) (bias V c t))))
            ∗ (∃ X, owns (c : Thread nD τ) (st1_3 t) fullShare X))) := by
  rw [show (dat V c).Φ t.succ = (dat V c).Φ t.castSucc from rfl,
    show (dat V c).owesAt () t.succ = (dat V c).owesAt () t.castSucc from rfl, cut_weights, cut_bias]
  unfold bodyAt1
  iintro ⟨HΦ, Ho, ⟨%d0, H0⟩, ⟨%d1, H1⟩, ⟨%d2, H2⟩, ⟨%X, H3⟩⟩
  iapply (body_run c Set.univ _ _ _ _ _ _ _ _ _ (blockAt V c 0 t) (win1_1.fill (grid1.coords t) d1 (blockAt V c 1 t))
    (win1_2.fill (grid1.coords t) d2 (blockAt V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

theorem body_obligation_forgetting (c : Dev nD) :
    BodyObligationLoose (dat (F := F) V c) (defs₀ (F := F)) Variants.none () Set.univ forgetResult := fun t => by
  rw [bigSep_W1, bigSep_W1]
  simp only [found_0, found_1, found_2, left_0, left_1, left_2]
  exact at_point_forgetting V c t

end Cert.KernelIdeal.Head

end
-- ==== Proof.Frames.lean ====
/-
  The program as a chain of nine items: five stretches of host operations (the embedding rows gathered and joined to the
  noise, the two paddings, the format changes, the bias rows), the first region, one host operation (the last bias row), the
  second region, and the reshape of the result. Each item is entered from the contents of the core's buffers that the item
  before it leaves. A region takes its windows' arrays out of those buffers, runs its pipeline — whose body obligation is the
  one-run lemma of its kernel — and puts the arrays back: the inputs as they were, the output at what the points wrote back.

  The first region's output is named (two row blocks written back in turn). The second region's is not: its last block's
  fetches leave words nothing names past the arrays' end, and at the word level an entry of a matrix product may depend on
  the whole tile of its right factor, so the result window is forgotten and after the region the result's array holds
  SOME contents. The reshape that follows therefore runs from contents of which only the existence is known, and so does the
  reading of the final memory: every argument array is as launched because no item writes one, whatever the result holds.
  Stated at any float interpretation.
-/
import proofs.«157737_j67053029425158_2_alg».proof.Proof.Trunk
import proofs.«157737_j67053029425158_2_alg».proof.Proof.Head
import proofs.«157737_j67053029425158_2_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Cells
import Idealize.ShloMosaic.Lib.Pipeline.Kit
import Idealize.ShloMosaic.Lib.Tactic

noncomputable section

namespace Cert.KernelIdeal.Frames

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of the program -/

/-- What the first region finds, read at the core's own references. -/
abbrev atTrunk : (c : Dev nD) → (b : Ref sig .tc) → Buf (Elt F) ((c : Thread nD τ).loc b) := fun c b => Gen.V5 m c b

/-- The hidden layer as the first region leaves it: the two row blocks written back in turn. -/
def hiddenLeft (c : Dev nD) : Buf (Elt F) ((c : Thread nD τ).loc main_v17) := (Trunk.dat (atTrunk m) c).arrAt 7 cfg0.N

/-- The regions' results as unknowns of the generated valuations: the hidden layer at what the first region leaves, the
    head's result at a given `G`, anything else (never read) at its launch contents. -/
def leftBy (G : (c : Dev nD) → Buf (Elt F) ((c : Thread nD τ).loc main_v19)) : Gen.Outs (F := F) :=
  fun _ r c => if h : r = main_v17 then h ▸ hiddenLeft m c else if h' : r = main_v19 then h' ▸ G c else m ((c : Thread nD τ).loc r)

theorem leftBy_hidden (G) (n : ℕ) (c : Dev nD) : leftBy m G n main_v17 c = hiddenLeft m c := by
  unfold leftBy; rw [dif_pos rfl]
theorem leftBy_result (G) (n : ℕ) (c : Dev nD) : leftBy m G n main_v19 c = G c := by
  unfold leftBy; rw [dif_neg (by decide), dif_pos rfl]

/-- A fixed choice for the stretch of the program before the head runs, where its result is not yet read. -/
abbrev early : Gen.Outs (F := F) := leftBy m fun c => m ((c : Thread nD τ).loc main_v19)

/-- What the second region finds, read at the core's own references. -/
abbrev atHead : (c : Dev nD) → (b : Ref sig .tc) → Buf (Elt F) ((c : Thread nD τ).loc b) := fun c b => Gen.V7 m (early m) c b

/-! ## The proof data of the two regions, the head's result forgotten -/

def pdats : (p : Fin 2) → (c : Dev nD) → Dat τ (Elt F) Unit ℕ (UR sig nD τ) ℕ (Pipeline.pin (pcfgs (F := F)) Gen.adm p) c
  | ⟨0, _⟩ => fun c => Trunk.dat (atTrunk m) c
  | ⟨1, _⟩ => fun c => Head.dat (atHead m) c

abbrev forget : (p : Fin 2) → Fin (Pipeline.pin (pcfgs (F := F)) Gen.adm p).W → Bool
  | ⟨0, _⟩ => fun _ => false
  | ⟨1, _⟩ => Head.forgetResult

def rdats (p : Fin 2) (c : Dev nD) : RDat τ (Elt F) Unit ℕ (UR sig nD τ) ℕ (Pipeline.pin (pcfgs (F := F)) Gen.adm p) c :=
  (pdats m p c).toRForget (forget p)

abbrev 𝒱₀ : Variants := Variants.none
abbrev L : GSem nD τ sig → Finset Unit := fun _ => ∅
abbrev lv : GSem nD τ sig → Unit → ℕ := fun _ _ => 0

/-- What rides beside the buffers through every item: the generator register at some state and the core owing nothing. -/
abbrev R (c : Dev nD) : sProp 𝕄 := iprop((∃ r, prngReg c r) ∗ ∃ W, owes (c : Thread nD τ) (0 : CellTallies nD τ sig Unit) W)

/-- What the first region leaves in each of its arrays is what the valuation after it holds there: the seven inputs as
    found, the hidden layer at `hiddenLeft`. -/
theorem trunk_left (c : Dev nD) : ∀ w : Fin cfg0.W, (pdats m 0 c).arrAt w cfg0.N = Gen.V6 m (early m) c (Pipeline.arrRef spec0 w)
  | ⟨0, _⟩ => ((pdats m 0 c).arrAt_in 0 rfl _).trans (Gen.V6_of m (early m) c main_v9 (by decide)).symm
  | ⟨1, _⟩ => ((pdats m 0 c).arrAt_in 1 rfl _).trans (Gen.V6_of m (early m) c main_v11 (by decide)).symm
  | ⟨2, _⟩ => ((pdats m 0 c).arrAt_in 2 rfl _).trans (Gen.V6_of m (early m) c main_v12 (by decide)).symm
  | ⟨3, _⟩ => ((pdats m 0 c).arrAt_in 3 rfl _).trans (Gen.V6_of m (early m) c main_v13 (by decide)).symm
  | ⟨4, _⟩ => ((pdats m 0 c).arrAt_in 4 rfl _).trans (Gen.V6_of m (early m) c main_v14 (by decide)).symm
  | ⟨5, _⟩ => ((pdats m 0 c).arrAt_in 5 rfl _).trans (Gen.V6_of m (early m) c main_v15 (by decide)).symm
  | ⟨6, _⟩ => ((pdats m 0 c).arrAt_in 6 rfl _).trans (Gen.V6_of m (early m) c main_v16 (by decide)).symm
  | ⟨7, _⟩ => by
    show hiddenLeft m c = Function.update (Gen.V5 m c) (Proc.devRef .tc main_v17) (early m 6 main_v17 c) (Proc.devRef .tc main_v17)
    rw [Function.update_self]; exact (leftBy_hidden m _ 6 c).symm

/-- Off the first region's arrays the valuation after it is the one before it. -/
theorem trunk_kept (c : Dev nD) (b : Ref sig .tc) (hb : b ∉ Finset.univ.image (Pipeline.arrRef spec0)) :
    Gen.V6 m (early m) c b = atTrunk m c b :=
  Gen.V6_of m (early m) c b fun h => hb (Finset.mem_image.mpr ⟨7, Finset.mem_univ _, (List.mem_singleton.mp h).symm⟩)

set_option backward.isDefEq.respectTransparency.types false in
/-- The first region as an item of the program: entered from the contents the host stretches before it leave, left at
    those with the hidden layer's array at what the region wrote. -/
def trunkSeg : Pipeline.RDat.RegionSeg (pcfgs (F := F)) Gen.adm (rdats m) () defs₀ 𝒱₀ L lv 0 where
  win := launch0.win.to₀
  block_pos := launch0.block_pos
  stage_whole := launch0.stage_whole
  K := PEmpty
  osem k := k.elim
  ho := Pipeline.OwnSemFacts.none _
  hbody c := (Trunk.body_obligation (atTrunk m) c).toRForget
  hwaits := Pipeline.RDat.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (early m) c) ∗ R c)
  X c := iprop(∃ r, prngReg c r)
  Y c := iprop(∃ r, prngReg c r)
  Z c := Pipeline.unscopedRest (Ix := Unit) (Name := ℕ) (U := UR sig nD τ) (Lvl := ℕ) spec0 c (atTrunk m c)
  hentry c := by
    rw [Pipeline.ownSems0_none]
    have hsplit := Pipeline.RDat.arrays_of_unscopedBufs (p := 0) (pcfgs (F := F)) Gen.adm (rdats m) launch0.win launch0.arr_whole c
      (fun w => (congrFun ((pdats m 0 c).toRForget_share _) w).trans ((pdats m 0 c).share_full (fun _ => rfl) w)) (atTrunk m c) fun _ => rfl
    rw [Pipeline.unscopedBufs_held] at hsplit
    refine (sep_mono (sep_mono hsplit .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hnamed : (rdats m 0 c).arraysAt cfg0.N ⊢ ((pdats m 0 c).arrays ((pdats m 0 c).arrAt · cfg0.N) : sProp 𝕄) :=
      (pdats m 0 c).toR_arraysAt_post cfg0.N
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTrunk m c) (fun b => Gen.V6 m (early m) c b) ((pdats m 0 c).arrAt · cfg0.N) (trunk_left m c) (trunk_kept m c)
    rw [Pipeline.unscopedBufs_held] at hjoin
    refine (sep_mono hnamed .rfl).trans ?_
    iintro ⟨Ha', HO, HY, Hrest⟩
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-! ## The second region, its result forgotten -/

/-- The valuation before the head runs does not depend on what is assumed of the head's result. -/
theorem before_head (G : (c : Dev nD) → Buf (Elt F) ((c : Thread nD τ).loc main_v19)) (c : Dev nD) :
    Gen.V7 m (leftBy m G) c = Gen.V7 m (early m) c := by
  show StableHlo.after hostOps1 (Function.update (Gen.V5 m c) (Proc.devRef .tc main_v17) (leftBy m G 6 main_v17 c))
    = StableHlo.after hostOps1 (Function.update (Gen.V5 m c) (Proc.devRef .tc main_v17) (leftBy m _ 6 main_v17 c))
  rw [leftBy_hidden, leftBy_hidden]

/-- A result for every core from a result `g` on core `c`. -/
def resultAt (c : Dev nD) (g : Buf (Elt F) ((c : Thread nD τ).loc main_v19)) : (c' : Dev nD) → Buf (Elt F) ((c' : Thread nD τ).loc main_v19) :=
  Function.update (fun c' => m ((c' : Thread nD τ).loc main_v19)) c g

theorem resultAt_self (c : Dev nD) (g) : resultAt m c g c = g := Function.update_self ..

/-- The head's arrays after it: the three inputs as found, the result at `g`. -/
def headArrays (c : Dev nD) (g : Buf (Elt F) ((c : Thread nD τ).loc main_v19)) :
    (w : Fin cfg1.W) → Buf (Elt F) ((cfg1.win w).arr.view.loc (c : Thread nD τ))
  | ⟨0, _⟩ => (pdats m 1 c).A 0
  | ⟨1, _⟩ => (pdats m 1 c).A 1
  | ⟨2, _⟩ => (pdats m 1 c).A 2
  | ⟨3, _⟩ => g

theorem head_left (c : Dev nD) (g) : ∀ w : Fin cfg1.W,
    headArrays m c g w = Gen.V8 m (leftBy m (resultAt m c g)) c (Pipeline.arrRef spec1 w)
  | ⟨0, _⟩ => ((Gen.V8_of m _ c main_v17 (by decide)).trans (congrFun (before_head m _ c) _)).symm
  | ⟨1, _⟩ => ((Gen.V8_of m _ c main_arg9 (by decide)).trans (congrFun (before_head m _ c) _)).symm
  | ⟨2, _⟩ => ((Gen.V8_of m _ c main_v18 (by decide)).trans (congrFun (before_head m _ c) _)).symm
  | ⟨3, _⟩ => by
    show g = Function.update (Gen.V7 m _ c) (Proc.devRef .tc main_v19) (leftBy m (resultAt m c g) 8 main_v19 c) (Proc.devRef .tc main_v19)
    rw [Function.update_self, leftBy_result, resultAt_self]

theorem head_kept (c : Dev nD) (g) (b : Ref sig .tc) (hb : b ∉ Finset.univ.image (Pipeline.arrRef spec1)) :
    Gen.V8 m (leftBy m (resultAt m c g)) c b = atHead m c b :=
  (Gen.V8_of m _ c b fun h => hb (Finset.mem_image.mpr ⟨3, Finset.mem_univ _, (List.mem_singleton.mp h).symm⟩)).trans
    (congrFun (before_head m _ c) _)

/-- After the last write-back the head's arrays hold: the inputs what they held, the result something. -/
theorem head_arrays_out (c : Dev nD) :
    (rdats m 1 c).arraysAt cfg1.N ⊢ (iprop(∃ g, (pdats m 1 c).arrays (headArrays m c g)) : sProp 𝕄) := by
  unfold RDat.arraysAt Dat.arrays
  rw [bigSep_W1]
  iintro ⟨⟨%F0, %h0, H0⟩, ⟨%F1, %h1, H1⟩, ⟨%F2, %h2, H2⟩, ⟨%F3, %h3, H3⟩⟩
  have e0 : F0 = (pdats m 1 c).A 0 :=
    (((pdats m 1 c).toRForget_arrAt_iff (fgt := Head.forgetResult) (w := 0) rfl _ _).mp h0).trans ((pdats m 1 c).arrAt_in 0 rfl _)
  have e1 : F1 = (pdats m 1 c).A 1 :=
    (((pdats m 1 c).toRForget_arrAt_iff (fgt := Head.forgetResult) (w := 1) rfl _ _).mp h1).trans ((pdats m 1 c).arrAt_in 1 rfl _)
  have e2 : F2 = (pdats m 1 c).A 2 :=
    (((pdats m 1 c).toRForget_arrAt_iff (fgt := Head.forgetResult) (w := 2) rfl _ _).mp h2).trans ((pdats m 1 c).arrAt_in 2 rfl _)
  subst e0 e1 e2
  iexists F3
  rw [bigSep_W1]
  isplitl [H0]; · iexact H0
  isplitl [H1]; · iexact H1
  isplitl [H2]; · iexact H2
  iexact H3

set_option backward.isDefEq.respectTransparency.types false in
/-- The second region as an item of the program: entered from the contents the reshape of the bias leaves, left at
    contents that agree with those off the result's array, which holds something. -/
def headSeg : Pipeline.RDat.RegionSeg (pcfgs (F := F)) Gen.adm (rdats m) () defs₀ 𝒱₀ L lv 1 where
  win := launch1.win.to₀
  block_pos := launch1.block_pos
  stage_whole := launch1.stage_whole
  K := PEmpty
  osem k := k.elim
  ho := Pipeline.OwnSemFacts.none _
  hbody c := (Head.body_obligation_forgetting (atHead m) c).toRForget
  hwaits := Pipeline.RDat.hwaits_of_owed_zero _ _ _ _ L lv 1 fun _ _ => rfl
  pre c := iprop(StableHlo.held (c : Thread nD τ) (Pipeline.ucRefs τ sig) (Gen.V7 m (early m) c) ∗ R c)
  post c := iprop(∃ G, StableHlo.held (c : Thread nD τ) (Pipeline.ucRefs τ sig) (Gen.V8 m (leftBy m G) c) ∗ R c)
  X c := iprop(∃ r, prngReg c r)
  Y c := iprop(∃ r, prngReg c r)
  Z c := Pipeline.unscopedRest (Ix := Unit) (Name := ℕ) (U := UR sig nD τ) (Lvl := ℕ) spec1 c (atHead m c)
  hentry c := by
    rw [Pipeline.ownSems0_none]
    have hsplit := Pipeline.RDat.arrays_of_unscopedBufs (p := 1) (pcfgs (F := F)) Gen.adm (rdats m) launch1.win launch1.arr_whole c
      (fun w => (congrFun ((pdats m 1 c).toRForget_share _) w).trans ((pdats m 1 c).share_full (fun _ => rfl) w)) (atHead m c) fun _ => rfl
    rw [Pipeline.unscopedBufs_held] at hsplit
    refine (sep_mono (sep_mono hsplit .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    refine (sep_mono (head_arrays_out m c) .rfl).trans ?_
    iintro ⟨⟨%g, Ha'⟩, HO, HY, Hrest⟩
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atHead m c) (fun b => Gen.V8 m (leftBy m (resultAt m c g)) c b) (headArrays m c g) (head_left m c g) (head_kept m c g)
    rw [Pipeline.unscopedBufs_held] at hjoin
    imodintro
    iexists resultAt m c g
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-! ## The program as its items, and the run -/

/-- Beside the buffers every generated host segment carries `R`. -/
abbrev rests : Fin 3 → Dev nD → sProp 𝕄 := fun _ => R

/-- The last host stretch (the result reshaped to its three axes) from contents of which only the existence is known:
    for each such contents it is the generated segment there. -/
def lastSeg : Pipeline.HostSeg (Name := ℕ) (U := UR sig nD τ) (pcfgs (F := F)) defs₀ 𝒱₀ L lv where
  prog := StableHlo.seq hostOps2
  pre c := iprop(∃ G, (Gen.seg8 (Ix := Unit) (U := UR sig nD τ) (Lvl := ℕ) m (leftBy m G) 𝒱₀ L lv rests).pre c)
  post c := iprop(∃ G, (Gen.seg8 (Ix := Unit) (U := UR sig nD τ) (Lvl := ℕ) m (leftBy m G) 𝒱₀ L lv rests).post c)
  run c {β} k K := by
    iintro ⟨Hk, Hbd, ⟨%G, Hpre⟩, Hl⟩
    iapply ((Gen.seg8 (Ix := Unit) (U := UR sig nD τ) (Lvl := ℕ) m (leftBy m G) 𝒱₀ L lv rests).run c k K)
    isplitl [Hk]
    · iintro ⟨Hb, Hpost⟩
      iapply Hk
      isplitl [Hb]; · iexact Hb
      iexists G; iexact Hpost
    isplitl [Hbd]; · iexact Hbd
    isplitl [Hpre]; · iexact Hpre
    iexact Hl

/-- The program's nine items in order. -/
abbrev items : List (Pipeline.RDat.Seg (pcfgs (F := F)) Gen.adm (rdats m) () defs₀ 𝒱₀ L lv) :=
  [.host (Gen.seg0 m 𝒱₀ L lv rests), .host (Gen.seg1 m 𝒱₀ L lv rests), .host (Gen.seg2 m 𝒱₀ L lv rests),
   .host (Gen.seg3 m 𝒱₀ L lv rests), .host (Gen.seg4 m 𝒱₀ L lv rests), .region (trunkSeg m),
   .host (Gen.seg6 m (early m) 𝒱₀ L lv rests), .region (headSeg m), .host (lastSeg m)]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program from a memory with zero counters ends, faults nowhere, and leaves each of the
    eleven argument arrays as launched: no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.RDat.θ_run_regions_kit (pcfgs (F := F)) Gen.adm (rdats m) () cellOf_inj emb₁ defs₀ 𝒱₀ L lv m ρ main (items m)
    (fun c Q => by
      rw [main_chain c, Pipeline.RDat.Seg.run_eq_chain]
      exact .rfl)
    (by simp only [items, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(∃ G, StableHlo.held (c : Thread nD τ) (Pipeline.ucRefs τ sig) (Gen.V9 m (leftBy m G) c) ∗ ∃ r, prngReg c r))
    (hch := ⟨fun _ => .rfl, fun _ => .rfl, fun _ => .rfl, fun _ => .rfl, fun _ => .rfl, fun _ => .rfl, fun _ => .rfl, fun _ => .rfl,
      fun _ => .rfl, fun c => by
        show iprop(∃ G, StableHlo.held (c : Thread nD τ) (Pipeline.ucRefs τ sig) (Gen.V9 m (leftBy m G) c) ∗ R c) ⊢ _
        iintro ⟨%G, Hh, Hp, HO⟩
        isplitl [Hh Hp]
        · iexists G
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∃ G, ∀ b ∈ Pipeline.ucRefs τ sig, s.mem (((c : Thread nD τ)).1, b) = Gen.V9 m (leftBy m G) c b)
    (hfin := fun c s' => by
      iintro ⟨⟨%G, Hh, -⟩, HSI⟩
      unfold StableHlo.held
      imodintro
      iapply ((pointsTo_read_all (Pipeline.ucRefs τ sig) (fun b => (((c : Thread nD τ)).1, b)) (Gen.V9 m (leftBy m G) c) s').trans
        (sep_mono (BI.pure_mono fun h => ⟨G, h⟩) .rfl))
      isplitl [Hh] <;> iassumption)
    (hQ := fun s h c => by
      obtain ⟨G, hG⟩ := h c
      exact ⟨(hG _ (mem_uc main_arg0 (by decide))).trans (Gen.V9_main_arg0 m (leftBy m G) c),
        (hG _ (mem_uc main_arg1 (by decide))).trans (Gen.V9_main_arg1 m (leftBy m G) c),
        (hG _ (mem_uc main_arg2 (by decide))).trans (Gen.V9_main_arg2 m (leftBy m G) c),
        (hG _ (mem_uc main_arg3 (by decide))).trans (Gen.V9_main_arg3 m (leftBy m G) c),
        (hG _ (mem_uc main_arg4 (by decide))).trans (Gen.V9_main_arg4 m (leftBy m G) c),
        (hG _ (mem_uc main_arg5 (by decide))).trans (Gen.V9_main_arg5 m (leftBy m G) c),
        (hG _ (mem_uc main_arg6 (by decide))).trans (Gen.V9_main_arg6 m (leftBy m G) c),
        (hG _ (mem_uc main_arg7 (by decide))).trans (Gen.V9_main_arg7 m (leftBy m G) c),
        (hG _ (mem_uc main_arg8 (by decide))).trans (Gen.V9_main_arg8 m (leftBy m G) c),
        (hG _ (mem_uc main_arg9 (by decide))).trans (Gen.V9_main_arg9 m (leftBy m G) c),
        (hG _ (mem_uc main_arg10 (by decide))).trans (Gen.V9_main_arg10 m (leftBy m G) c)⟩)

end Cert.KernelIdeal.Frames

end
-- ==== Proof.BitsTrunk.lean ====
/-
  The first kernel region: the three dense layers. Its grid has two points; point t works on rows 512·t … 512·t + 511
  of the padded input. Every window but the input rows' and the result rows' is the whole of its array (the three weight
  matrices and the three bias rows), fetched once and found in place at the second point. The body reads the eight
  staging buffers whole and stores one value, the third hidden layer of its 512 rows, whole into the result's buffer.
  This module says what each staging buffer holds when the body is entered and when it returns, at any float
  interpretation, and proves that the body, run on such buffers, returns them so.
-/
import proofs.«157737_j67053029425158_2_alg».proof.Proof.Gen.Kernel.Skeleton
import proofs.«157737_j67053029425158_2_alg».proof.Proof.Gen.Kernel.Launch
import proofs.«157737_j67053029425158_2_alg».proof.Proof.Gen.Kernel.Points
import Idealize.ShloMosaic.Lib.Pipeline.Kit
import Idealize.ShloMosaic.Lib.Pipeline.Frame
import Idealize.ShloMosaic.Lib.Pipeline.Value
import Idealize.ShloMosaic.Lib.Tactic

noncomputable section

namespace Cert.Kernel.Trunk

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the region is entered: a parameter here, fixed by the run
variable (V : (c : Dev nD) → (b : Ref sig .tc) → Buf (Elt F) ((c : Thread nD τ).loc b))

/-! ## One run of the body on whole buffers -/

theorem zeros2 : (![0, 0] : Fin 2 → Nat) = fun _ => 0 := funext fun a => by fin_cases a <;> rfl

set_option maxHeartbeats 1000000 in
/-- The body on eight whole staging buffers, the seven inputs' holding x1 … x7 and the result's anything: it returns the
    inputs' unchanged and the result's holding the third hidden layer computed from x1 … x7. -/
theorem body_run (c : Dev nD) (E : Set ℕ) (i : grid0.Coords)
    (a1 : Memref sig .tc .vmem S512x128 .bf16) (h1 : a1.IsWhole) (a2 : Memref sig .tc .vmem S128x256 .bf16) (h2 : a2.IsWhole)
    (a3 : Memref sig .tc .vmem S1x256 .f32) (h3 : a3.IsWhole) (a4 : Memref sig .tc .vmem S256x512 .bf16) (h4 : a4.IsWhole)
    (a5 : Memref sig .tc .vmem S1x512 .f32) (h5 : a5.IsWhole) (a6 : Memref sig .tc .vmem S512x1024 .bf16) (h6 : a6.IsWhole)
    (a7 : Memref sig .tc .vmem S1x1024 .f32) (h7 : a7.IsWhole) (a8 : Memref sig .tc .vmem S512x1024 .bf16) (h8 : a8.IsWhole)
    (x1 : Vec F S512x128 .bf16) (x2 : Vec F S128x256 .bf16) (x3 : Vec F S1x256 .f32) (x4 : Vec F S256x512 .bf16)
    (x5 : Vec F S1x512 .f32) (x6 : Vec F S512x1024 .bf16) (x7 : Vec F S1x1024 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ (∃ d, owns (c : Thread nD τ) a8 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7 ∗ owns (c : Thread nD τ) a8 fullShare (k0_pay1 x1 x2 x3 x4 x5 x6 x7)) -∗ K ⟨⟩))
      ⊢ wp frame (wpE (defs₀ (F := F)) Variants.none c none) E (cc0__trunk_kernel i a1 h1 a2 h2 a3 h3 a4 h4 a5 h5 a6 h6 a7 h7 a8 h8) K := by
  simp only [cc0__trunk_kernel_eq_skeleton]; unfold cc0__trunk_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e1 e2 e3 e4 e5 e6 e7
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  -- one store through the whole buffer, read back, is its payload; a load through a whole buffer reads its contents
  rw [View.read_writes_eq_canon _ _ _ (View.cover_of_tiled _ S512x1024.size (by rfl)), View.canon_unit_zero zeros2]
  simp only [View.readAt_eq_ld, View.ld_unit_zero (S := S512x128) zeros2, View.ld_unit_zero (S := S128x256) zeros2,
    View.ld_unit_zero (S := S1x256) zeros2, View.ld_unit_zero (S := S256x512) zeros2, View.ld_unit_zero (S := S1x512) zeros2,
    View.ld_unit_zero (S := S512x1024) zeros2, View.ld_unit_zero (S := S1x1024) zeros2]

/-! ## What the buffers hold, point by point -/

/-- Window w's block of its array at point t, as the region finds the array. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The third hidden layer of the 512 rows of point t, from the seven input blocks there. -/
def layer3 (c : Dev nD) (t : Fin cfg0.N) : Vec F S512x1024 .bf16 :=
  k0_pay1 (blockAt V c 0 t) (blockAt V c 1 t) (blockAt V c 2 t) (blockAt V c 3 t) (blockAt V c 4 t) (blockAt V c 5 t) (blockAt V c 6 t)

/-- The region's proof data on core c: the arrays as found; after the body each input's buffer at its block and the
    result's at the computed layer; the invariant is the scoped buffers no window stages and the generator register, which
    the body does not touch; nothing owed, whole shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => layer3 V c t
  Φ _ := Pipeline.ΦA spec0 c
  q _ := fullShare
  owed _ := 0

theorem entry_eq (c : Dev nD) (w : Fin cfg0.W) : (dat V c).A w = V c (Pipeline.arrRef spec0 w) := by dsimp only [dat]

theorem left_0 (c : Dev nD) (t : Fin cfg0.N) : (dat V c).after 0 t = blockAt V c 0 t := by dsimp only [dat]
theorem left_1 (c : Dev nD) (t : Fin cfg0.N) : (dat V c).after 1 t = blockAt V c 1 t := by dsimp only [dat]
theorem left_2 (c : Dev nD) (t : Fin cfg0.N) : (dat V c).after 2 t = blockAt V c 2 t := by dsimp only [dat]
theorem left_3 (c : Dev nD) (t : Fin cfg0.N) : (dat V c).after 3 t = blockAt V c 3 t := by dsimp only [dat]
theorem left_4 (c : Dev nD) (t : Fin cfg0.N) : (dat V c).after 4 t = blockAt V c 4 t := by dsimp only [dat]
theorem left_5 (c : Dev nD) (t : Fin cfg0.N) : (dat V c).after 5 t = blockAt V c 5 t := by dsimp only [dat]
theorem left_6 (c : Dev nD) (t : Fin cfg0.N) : (dat V c).after 6 t = blockAt V c 6 t := by dsimp only [dat]
theorem left_7 (c : Dev nD) (t : Fin cfg0.N) : (dat V c).after 7 t = layer3 V c t := by dsimp only [dat]

/-! An input's buffer holds its block whenever the body runs: fetched at this point, or fetched at the first point and
    left in place since (its block index does not move). -/
theorem found_0 (c : Dev nD) (t : Fin cfg0.N) (d) : (dat V c).before 0 t d = blockAt V c 0 t :=
  ((dat V c).before_in_eq_fetched 0 rfl (fun _ => rfl) (fun _ _ _ => rfl)
    (fun t => by rw [left_0]; unfold Dat.blockOf blockAt; rw [entry_eq]; try rfl) t d).trans
    (by unfold Dat.fetched Dat.blockOf blockAt; rw [entry_eq]; try rfl)
theorem found_1 (c : Dev nD) (t : Fin cfg0.N) (d) : (dat V c).before 1 t d = blockAt V c 1 t :=
  ((dat V c).before_in_eq_fetched 1 rfl (fun _ => rfl) (fun _ _ _ => rfl)
    (fun t => by rw [left_1]; unfold Dat.blockOf blockAt; rw [entry_eq]; try rfl) t d).trans
    (by unfold Dat.fetched Dat.blockOf blockAt; rw [entry_eq]; try rfl)
theorem found_2 (c : Dev nD) (t : Fin cfg0.N) (d) : (dat V c).before 2 t d = blockAt V c 2 t :=
  ((dat V c).before_in_eq_fetched 2 rfl (fun _ => rfl) (fun _ _ _ => rfl)
    (fun t => by rw [left_2]; unfold Dat.blockOf blockAt; rw [entry_eq]; try rfl) t d).trans
    (by unfold Dat.fetched Dat.blockOf blockAt; rw [entry_eq]; try rfl)
theorem found_3 (c : Dev nD) (t : Fin cfg0.N) (d) : (dat V c).before 3 t d = blockAt V c 3 t :=
  ((dat V c).before_in_eq_fetched 3 rfl (fun _ => rfl) (fun _ _ _ => rfl)
    (fun t => by rw [left_3]; unfold Dat.blockOf blockAt; rw [entry_eq]; try rfl) t d).trans
    (by unfold Dat.fetched Dat.blockOf blockAt; rw [entry_eq]; try rfl)
theorem found_4 (c : Dev nD) (t : Fin cfg0.N) (d) : (dat V c).before 4 t d = blockAt V c 4 t :=
  ((dat V c).before_in_eq_fetched 4 rfl (fun _ => rfl) (fun _ _ _ => rfl)
    (fun t => by rw [left_4]; unfold Dat.blockOf blockAt; rw [entry_eq]; try rfl) t d).trans
    (by unfold Dat.fetched Dat.blockOf blockAt; rw [entry_eq]; try rfl)
theorem found_5 (c : Dev nD) (t : Fin cfg0.N) (d) : (dat V c).before 5 t d = blockAt V c 5 t :=
  ((dat V c).before_in_eq_fetched 5 rfl (fun _ => rfl) (fun _ _ _ => rfl)
    (fun t => by rw [left_5]; unfold Dat.blockOf blockAt; rw [entry_eq]; try rfl) t d).trans
    (by unfold Dat.fetched Dat.blockOf blockAt; rw [entry_eq]; try rfl)
theorem found_6 (c : Dev nD) (t : Fin cfg0.N) (d) : (dat V c).before 6 t d = blockAt V c 6 t :=
  ((dat V c).before_in_eq_fetched 6 rfl (fun _ => rfl) (fun _ _ _ => rfl)
    (fun t => by rw [left_6]; unfold Dat.blockOf blockAt; rw [entry_eq]; try rfl) t d).trans
    (by unfold Dat.fetched Dat.blockOf blockAt; rw [entry_eq]; try rfl)

/-- The result's buffer is found at contents nothing names: every point writes its block back. -/
theorem found_7 (c : Dev nD) (t : Fin cfg0.N) (d) : (dat V c).before 7 t d = d :=
  (dat V c).before_out_reset 7 rfl t
    (by by_cases h : t.val = 0
        · exact .inl h
        · exact .inr ⟨h, flush0_7 _⟩) d

/-! ## The obligation at every point -/

/-- The body at point t, entered with each input's buffer at its block and the result's at anything, returns the inputs'
    as they were and the result's at the computed layer; the invariant and the tallies pass through unread. -/
theorem at_point (c : Dev nD) (t : Fin cfg0.N) :
    iprop((dat V c).Φ t.castSucc ∗ (dat V c).owesAt () t.castSucc
        ∗ (∃ d : S512x128.Idx → Elt F .bf16, owns (c : Thread nD τ) (st0_0 t) fullShare (blockAt V c 0 t))
        ∗ (∃ d : S128x256.Idx → Elt F .bf16, owns (c : Thread nD τ) (st0_1 t) fullShare (blockAt V c 1 t))
        ∗ (∃ d : S1x256.Idx → Elt F .f32, owns (c : Thread nD τ) (st0_2 t) fullShare (blockAt V c 2 t))
        ∗ (∃ d : S256x512.Idx → Elt F .bf16, owns (c : Thread nD τ) (st0_3 t) fullShare (blockAt V c 3 t))
        ∗ (∃ d : S1x512.Idx → Elt F .f32, owns (c : Thread nD τ) (st0_4 t) fullShare (blockAt V c 4 t))
        ∗ (∃ d : S512x1024.Idx → Elt F .bf16, owns (c : Thread nD τ) (st0_5 t) fullShare (blockAt V c 5 t))
        ∗ (∃ d : S1x1024.Idx → Elt F .f32, owns (c : Thread nD τ) (st0_6 t) fullShare (blockAt V c 6 t))
        ∗ (∃ d : S512x1024.Idx → Elt F .bf16, owns (c : Thread nD τ) (st0_7 t) fullShare d))
      ⊢ wp frame (wpE (defs₀ (F := F)) Variants.none c none) Set.univ (bodyAt0 t) (fun _ =>
          iprop((dat V c).Φ t.succ ∗ (dat V c).owesAt () t.succ
            ∗ owns (c : Thread nD τ) (st0_0 t) fullShare (blockAt V c 0 t)
            ∗ owns (c : Thread nD τ) (st0_1 t) fullShare (blockAt V c 1 t)
            ∗ owns (c : Thread nD τ) (st0_2 t) fullShare (blockAt V c 2 t)
            ∗ owns (c : Thread nD τ) (st0_3 t) fullShare (blockAt V c 3 t)
            ∗ owns (c : Thread nD τ) (st0_4 t) fullShare (blockAt V c 4 t)
            ∗ owns (c : Thread nD τ) (st0_5 t) fullShare (blockAt V c 5 t)
            ∗ owns (c : Thread nD τ) (st0_6 t) fullShare (blockAt V c 6 t)
            ∗ owns (c : Thread nD τ) (st0_7 t) fullShare (layer3 V c t))) := by
  rw [show (dat V c).Φ t.succ = (dat V c).Φ t.castSucc from rfl,
    show (dat V c).owesAt () t.succ = (dat V c).owesAt () t.castSucc from rfl]
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ _ _ _ _ _ _ _ _ _ _ _ _ _ _ _ _ _ (blockAt V c 0 t) (blockAt V c 1 t) (blockAt V c 2 t)
    (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) :
    BodyObligation (dat (F := F) V c) (defs₀ (F := F)) Variants.none () Set.univ := fun t => by
  rw [bigSep_W0, bigSep_W0]
  simp only [found_0, found_1, found_2, found_3, found_4, found_5, found_6, found_7,
    left_0, left_1, left_2, left_3, left_4, left_5, left_6, left_7]
  exact at_point V c t

end Cert.Kernel.Trunk

end
-- ==== Proof.BitsHead.lean ====
/-
  The second kernel region: the output head. Its grid has 52 points; point t works on columns 1280·t … 1280·t + 1279 of
  the 66049 output columns, so the last block overhangs the arrays by 511 columns: its fetches fill only the leading 769
  columns of a staging buffer and leave the rest at words nothing names, and its write-back writes only those 769
  columns. The hidden layer (all 1024 rows, all 1024 columns) is one block, fetched once. The body reads the three
  input buffers whole and stores one value whole into the result's buffer: the logistic of the product with the
  weight block plus the bias block.
-/
import proofs.«157737_j67053029425158_2_alg».proof.Proof.Gen.Kernel.Skeleton
import proofs.«157737_j67053029425158_2_alg».proof.Proof.Gen.Kernel.Launch
import proofs.«157737_j67053029425158_2_alg».proof.Proof.Gen.Kernel.Points
import Idealize.ShloMosaic.Lib.Pipeline.Kit
import Idealize.ShloMosaic.Lib.Pipeline.Frame
import Idealize.ShloMosaic.Lib.Pipeline.Value
import Idealize.ShloMosaic.Lib.Tactic

noncomputable section

namespace Cert.Kernel.Head

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the region is entered: a parameter here, fixed by the run
variable (V : (c : Dev nD) → (b : Ref sig .tc) → Buf (Elt F) ((c : Thread nD τ).loc b))

/-! ## One run of the body on whole buffers -/

theorem zeros2 : (![0, 0] : Fin 2 → Nat) = fun _ => 0 := funext fun a => by fin_cases a <;> rfl

set_option maxHeartbeats 1000000 in
/-- The body on four whole staging buffers, the three inputs' holding x1, x2, x3 and the result's anything: it returns the
    inputs' unchanged and the result's holding the head's value computed from x1, x2, x3. -/
theorem body_run (c : Dev nD) (E : Set ℕ) (i : grid1.Coords)
    (a1 : Memref sig .tc .vmem S1024x1024 .bf16) (h1 : a1.IsWhole) (a2 : Memref sig .tc .vmem S1024x1280 .f32) (h2 : a2.IsWhole)
    (a3 : Memref sig .tc .vmem S1x1280 .f32) (h3 : a3.IsWhole) (a4 : Memref sig .tc .vmem S1024x1280 .f32) (h4 : a4.IsWhole)
    (x1 : Vec F S1024x1024 .bf16) (x2 : Vec F S1024x1280 .f32) (x3 : Vec F S1x1280 .f32) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) a4 fullShare d)
        ∗ (iprop(owns (c : Thread nD τ) a1 fullShare x1 ∗ owns (c : Thread nD τ) a2 fullShare x2 ∗ owns (c : Thread nD τ) a3 fullShare x3
            ∗ owns (c : Thread nD τ) a4 fullShare (k1_pay1 x1 x2 x3)) -∗ K ⟨⟩))
      ⊢ wp frame (wpE (defs₀ (F := F)) Variants.none c none) E (cc1__head_kernel i a1 h1 a2 h2 a3 h3 a4 h4) K := by
  simp only [cc1__head_kernel_eq_skeleton]; unfold cc1__head_kernel_skel
  unfold owns
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  rw [View.read_writes_eq_canon _ _ _ (View.cover_of_tiled _ S1024x1280.size (by rfl)), View.canon_unit_zero zeros2]
  simp only [View.readAt_eq_ld, View.ld_unit_zero (S := S1024x1024) zeros2, View.ld_unit_zero (S := S1024x1280) zeros2,
    View.ld_unit_zero (S := S1x1280) zeros2]

/-! ## What the buffers hold, point by point -/

/-- Window w's block of its array at point t, the part of it inside the array. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The zero word, with which a block is filled out past the array's end where a definite value is wanted. -/
def zeroWord : Elt F .f32 := Scalar.ofBits .f32 0#32

/-- The weight block and the bias block at point t filled out with zeros to the staging buffers' size. -/
def weights (c : Dev nD) (t : Fin cfg1.N) : Vec F S1024x1280 .f32 :=
  win1_1.fill (grid1.coords t) (fun _ => zeroWord) (blockAt V c 1 t)
def bias (c : Dev nD) (t : Fin cfg1.N) : Vec F S1x1280 .f32 :=
  win1_2.fill (grid1.coords t) (fun _ => zeroWord) (blockAt V c 2 t)

/-- The head's value on the 1280 columns of point t from the hidden layer and those two. -/
def scores (c : Dev nD) (t : Fin cfg1.N) : Vec F S1024x1280 .f32 :=
  k1_pay1 (blockAt V c 0 t) (weights V c t) (bias V c t)

def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => weights V c t
    | ⟨2, _⟩ => bias V c t
    | ⟨3, _⟩ => scores V c t
  Φ _ := Pipeline.ΦA spec1 c
  q _ := fullShare
  owed _ := 0

theorem entry_eq (c : Dev nD) (w : Fin cfg1.W) : (dat V c).A w = V c (Pipeline.arrRef spec1 w) := by dsimp only [dat]
theorem left_0 (c : Dev nD) (t : Fin cfg1.N) : (dat V c).after 0 t = blockAt V c 0 t := by dsimp only [dat]
theorem left_1 (c : Dev nD) (t : Fin cfg1.N) : (dat V c).after 1 t = weights V c t := by dsimp only [dat]
theorem left_2 (c : Dev nD) (t : Fin cfg1.N) : (dat V c).after 2 t = bias V c t := by dsimp only [dat]
theorem left_3 (c : Dev nD) (t : Fin cfg1.N) : (dat V c).after 3 t = scores V c t := by dsimp only [dat]

theorem found_0 (c : Dev nD) (t : Fin cfg1.N) (d) : (dat V c).before 0 t d = blockAt V c 0 t :=
  ((dat V c).before_in_eq_fetched 0 rfl (fun _ => rfl) (fun _ _ _ => rfl)
    (fun t => by rw [left_0]; unfold Dat.blockOf blockAt; rw [entry_eq]; try rfl) t d).trans
    (by unfold Dat.fetched Dat.blockOf blockAt; rw [entry_eq]; try rfl)

theorem found_1 (c : Dev nD) (t : Fin cfg1.N) (d) :
    (dat V c).before 1 t d = win1_1.fill (grid1.coords t) d (blockAt V c 1 t) := by
  unfold Dat.before; rw [if_pos (fetch1_1 t)]; unfold Dat.fetched Dat.blockOf blockAt; rw [entry_eq]

theorem found_2 (c : Dev nD) (t : Fin cfg1.N) (d) :
    (dat V c).before 2 t d = win1_2.fill (grid1.coords t) d (blockAt V c 2 t) := by
  unfold Dat.before; rw [if_pos (fetch1_2 t)]; unfold Dat.fetched Dat.blockOf blockAt; rw [entry_eq]

theorem found_3 (c : Dev nD) (t : Fin cfg1.N) (d) : (dat V c).before 3 t d = d :=
  (dat V c).before_out_reset 3 rfl t
    (by by_cases h : t.val = 0
        · exact .inl h
        · exact .inr ⟨h, flush1_3 _⟩) d

/-- The result window forgotten, the others kept. -/
abbrev forgetResult : Fin cfg1.W → Bool := fun | 0 => false | 1 => false | 2 => false | 3 => true | ⟨_ + 4, h⟩ => absurd h (Nat.not_lt.2 (Nat.le_add_left _ _))

theorem cut_weights (c : Dev nD) (t : Fin cfg1.N) : win1_1.cut (grid1.coords t) (weights V c t) = blockAt V c 1 t :=
  win1_1.cut_fill _ _ _
theorem cut_bias (c : Dev nD) (t : Fin cfg1.N) : win1_2.cut (grid1.coords t) (bias V c t) = blockAt V c 2 t :=
  win1_2.cut_fill _ _ _

/-- The body at point t with the result's buffer at contents nothing names, before and after: the hidden layer's buffer
    holds its block, the weight and bias buffers their blocks filled out by whatever the buffers held past the array's
    end, and the body hands all three back as it found them. -/
theorem at_point_forgetting (c : Dev nD) (t : Fin cfg1.N) :
    iprop((dat V c).Φ t.castSucc ∗ (dat V c).owesAt () t.castSucc
        ∗ (∃ d : S1024x1024.Idx → Elt F .bf16, owns (c : Thread nD τ) (st1_0 t) fullShare (blockAt V c 0 t))
        ∗ (∃ d, owns (c : Thread nD τ) (st1_1 t) fullShare (win1_1.fill (grid1.coords t) d (blockAt V c 1 t)))
        ∗ (∃ d, owns (c : Thread nD τ) (st1_2 t) fullShare (win1_2.fill (grid1.coords t) d (blockAt V c 2 t)))
        ∗ (∃ X, owns (c : Thread nD τ) (st1_3 t) fullShare X))
      ⊢ wp frame (wpE (defs₀ (F := F)) Variants.none c none) Set.univ (bodyAt1 t) (fun _ =>
          iprop((dat V c).Φ t.succ ∗ (dat V c).owesAt () t.succ
            ∗ owns (c : Thread nD τ) (st1_0 t) fullShare (blockAt V c 0 t)
            ∗ (∃ d, owns (c : Thread nD τ) (st1_1 t) fullShare
                (win1_1.fill (grid1.coords t) d (win1_1.cut (grid1.coords t) (weights V c t))))
            ∗ (∃ d, owns (c : Thread nD τ) (st1_2 t) fullShare
                (win1_2.fill (grid1.coords t) d (win1_2.cut (grid1.coords t) (bias V c t))))
            ∗ (∃ X, owns (c : Thread nD τ) (st1_3 t) fullShare X))) := by
  rw [show (dat V c).Φ t.succ = (dat V c).Φ t.castSucc from rfl,
    show (dat V c).owesAt () t.succ = (dat V c).owesAt () t.castSucc from rfl, cut_weights, cut_bias]
  unfold bodyAt1
  iintro ⟨HΦ, Ho, ⟨%d0, H0⟩, ⟨%d1, H1⟩, ⟨%d2, H2⟩, ⟨%X, H3⟩⟩
  iapply (body_run c Set.univ _ _ _ _ _ _ _ _ _ (blockAt V c 0 t) (win1_1.fill (grid1.coords t) d1 (blockAt V c 1 t))
    (win1_2.fill (grid1.coords t) d2 (blockAt V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

theorem body_obligation_forgetting (c : Dev nD) :
    BodyObligationLoose (dat (F := F) V c) (defs₀ (F := F)) Variants.none () Set.univ forgetResult := fun t => by
  rw [bigSep_W1, bigSep_W1]
  simp only [found_0, found_1, found_2, left_0, left_1, left_2]
  exact at_point_forgetting V c t

end Cert.Kernel.Head

end
-- ==== Proof.BitsFrames.lean ====
/-
  The program as a chain of nine items: five stretches of host operations (the embedding rows gathered and joined to the
  noise, the two paddings, the format changes, the bias rows), the first region, one host operation (the last bias row), the
  second region, and the reshape of the result. Each item is entered from the contents of the core's buffers that the item
  before it leaves. A region takes its windows' arrays out of those buffers, runs its pipeline — whose body obligation is the
  one-run lemma of its kernel — and puts the arrays back: the inputs as they were, the output at what the points wrote back.

  The first region's output is named (two row blocks written back in turn). The second region's is not: its last block's
  fetches leave words nothing names past the arrays' end, and at the word level an entry of a matrix product may depend on
  the whole tile of its right factor, so the result window is forgotten and after the region the result's array holds
  SOME contents. The reshape that follows therefore runs from contents of which only the existence is known, and so does the
  reading of the final memory: every argument array is as launched because no item writes one, whatever the result holds.
  Stated at any float interpretation.
-/
import proofs.«157737_j67053029425158_2_alg».proof.Proof.BitsTrunk
import proofs.«157737_j67053029425158_2_alg».proof.Proof.BitsHead
import proofs.«157737_j67053029425158_2_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Cells
import Idealize.ShloMosaic.Lib.Pipeline.Kit
import Idealize.ShloMosaic.Lib.Tactic

noncomputable section

namespace Cert.Kernel.Frames

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of the program -/

/-- What the first region finds, read at the core's own references. -/
abbrev atTrunk : (c : Dev nD) → (b : Ref sig .tc) → Buf (Elt F) ((c : Thread nD τ).loc b) := fun c b => Gen.V5 m c b

/-- The hidden layer as the first region leaves it: the two row blocks written back in turn. -/
def hiddenLeft (c : Dev nD) : Buf (Elt F) ((c : Thread nD τ).loc main_v17) := (Trunk.dat (atTrunk m) c).arrAt 7 cfg0.N

/-- The regions' results as unknowns of the generated valuations: the hidden layer at what the first region leaves, the
    head's result at a given `G`, anything else (never read) at its launch contents. -/
def leftBy (G : (c : Dev nD) → Buf (Elt F) ((c : Thread nD τ).loc main_v19)) : Gen.Outs (F := F) :=
  fun _ r c => if h : r = main_v17 then h ▸ hiddenLeft m c else if h' : r = main_v19 then h' ▸ G c else m ((c : Thread nD τ).loc r)

theorem leftBy_hidden (G) (n : ℕ) (c : Dev nD) : leftBy m G n main_v17 c = hiddenLeft m c := by
  unfold leftBy; rw [dif_pos rfl]
theorem leftBy_result (G) (n : ℕ) (c : Dev nD) : leftBy m G n main_v19 c = G c := by
  unfold leftBy; rw [dif_neg (by decide), dif_pos rfl]

/-- A fixed choice for the stretch of the program before the head runs, where its result is not yet read. -/
abbrev early : Gen.Outs (F := F) := leftBy m fun c => m ((c : Thread nD τ).loc main_v19)

/-- What the second region finds, read at the core's own references. -/
abbrev atHead : (c : Dev nD) → (b : Ref sig .tc) → Buf (Elt F) ((c : Thread nD τ).loc b) := fun c b => Gen.V7 m (early m) c b

/-! ## The proof data of the two regions, the head's result forgotten -/

def pdats : (p : Fin 2) → (c : Dev nD) → Dat τ (Elt F) Unit ℕ (UR sig nD τ) ℕ (Pipeline.pin (pcfgs (F := F)) Gen.adm p) c
  | ⟨0, _⟩ => fun c => Trunk.dat (atTrunk m) c
  | ⟨1, _⟩ => fun c => Head.dat (atHead m) c

abbrev forget : (p : Fin 2) → Fin (Pipeline.pin (pcfgs (F := F)) Gen.adm p).W → Bool
  | ⟨0, _⟩ => fun _ => false
  | ⟨1, _⟩ => Head.forgetResult

def rdats (p : Fin 2) (c : Dev nD) : RDat τ (Elt F) Unit ℕ (UR sig nD τ) ℕ (Pipeline.pin (pcfgs (F := F)) Gen.adm p) c :=
  (pdats m p c).toRForget (forget p)

abbrev 𝒱₀ : Variants := Variants.none
abbrev L : GSem nD τ sig → Finset Unit := fun _ => ∅
abbrev lv : GSem nD τ sig → Unit → ℕ := fun _ _ => 0

/-- What rides beside the buffers through every item: the generator register at some state and the core owing nothing. -/
abbrev R (c : Dev nD) : sProp 𝕄 := iprop((∃ r, prngReg c r) ∗ ∃ W, owes (c : Thread nD τ) (0 : CellTallies nD τ sig Unit) W)

/-- What the first region leaves in each of its arrays is what the valuation after it holds there: the seven inputs as
    found, the hidden layer at `hiddenLeft`. -/
theorem trunk_left (c : Dev nD) : ∀ w : Fin cfg0.W, (pdats m 0 c).arrAt w cfg0.N = Gen.V6 m (early m) c (Pipeline.arrRef spec0 w)
  | ⟨0, _⟩ => ((pdats m 0 c).arrAt_in 0 rfl _).trans (Gen.V6_of m (early m) c main_v9 (by decide)).symm
  | ⟨1, _⟩ => ((pdats m 0 c).arrAt_in 1 rfl _).trans (Gen.V6_of m (early m) c main_v11 (by decide)).symm
  | ⟨2, _⟩ => ((pdats m 0 c).arrAt_in 2 rfl _).trans (Gen.V6_of m (early m) c main_v12 (by decide)).symm
  | ⟨3, _⟩ => ((pdats m 0 c).arrAt_in 3 rfl _).trans (Gen.V6_of m (early m) c main_v13 (by decide)).symm
  | ⟨4, _⟩ => ((pdats m 0 c).arrAt_in 4 rfl _).trans (Gen.V6_of m (early m) c main_v14 (by decide)).symm
  | ⟨5, _⟩ => ((pdats m 0 c).arrAt_in 5 rfl _).trans (Gen.V6_of m (early m) c main_v15 (by decide)).symm
  | ⟨6, _⟩ => ((pdats m 0 c).arrAt_in 6 rfl _).trans (Gen.V6_of m (early m) c main_v16 (by decide)).symm
  | ⟨7, _⟩ => by
    show hiddenLeft m c = Function.update (Gen.V5 m c) (Proc.devRef .tc main_v17) (early m 6 main_v17 c) (Proc.devRef .tc main_v17)
    rw [Function.update_self]; exact (leftBy_hidden m _ 6 c).symm

/-- Off the first region's arrays the valuation after it is the one before it. -/
theorem trunk_kept (c : Dev nD) (b : Ref sig .tc) (hb : b ∉ Finset.univ.image (Pipeline.arrRef spec0)) :
    Gen.V6 m (early m) c b = atTrunk m c b :=
  Gen.V6_of m (early m) c b fun h => hb (Finset.mem_image.mpr ⟨7, Finset.mem_univ _, (List.mem_singleton.mp h).symm⟩)

set_option backward.isDefEq.respectTransparency.types false in
/-- The first region as an item of the program: entered from the contents the host stretches before it leave, left at
    those with the hidden layer's array at what the region wrote. -/
def trunkSeg : Pipeline.RDat.RegionSeg (pcfgs (F := F)) Gen.adm (rdats m) () defs₀ 𝒱₀ L lv 0 where
  win := launch0.win.to₀
  block_pos := launch0.block_pos
  stage_whole := launch0.stage_whole
  K := PEmpty
  osem k := k.elim
  ho := Pipeline.OwnSemFacts.none _
  hbody c := (Trunk.body_obligation (atTrunk m) c).toRForget
  hwaits := Pipeline.RDat.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (early m) c) ∗ R c)
  X c := iprop(∃ r, prngReg c r)
  Y c := iprop(∃ r, prngReg c r)
  Z c := Pipeline.unscopedRest (Ix := Unit) (Name := ℕ) (U := UR sig nD τ) (Lvl := ℕ) spec0 c (atTrunk m c)
  hentry c := by
    rw [Pipeline.ownSems0_none]
    have hsplit := Pipeline.RDat.arrays_of_unscopedBufs (p := 0) (pcfgs (F := F)) Gen.adm (rdats m) launch0.win launch0.arr_whole c
      (fun w => (congrFun ((pdats m 0 c).toRForget_share _) w).trans ((pdats m 0 c).share_full (fun _ => rfl) w)) (atTrunk m c) fun _ => rfl
    rw [Pipeline.unscopedBufs_held] at hsplit
    refine (sep_mono (sep_mono hsplit .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hnamed : (rdats m 0 c).arraysAt cfg0.N ⊢ ((pdats m 0 c).arrays ((pdats m 0 c).arrAt · cfg0.N) : sProp 𝕄) :=
      (pdats m 0 c).toR_arraysAt_post cfg0.N
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTrunk m c) (fun b => Gen.V6 m (early m) c b) ((pdats m 0 c).arrAt · cfg0.N) (trunk_left m c) (trunk_kept m c)
    rw [Pipeline.unscopedBufs_held] at hjoin
    refine (sep_mono hnamed .rfl).trans ?_
    iintro ⟨Ha', HO, HY, Hrest⟩
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-! ## The second region, its result forgotten -/

/-- The valuation before the head runs does not depend on what is assumed of the head's result. -/
theorem before_head (G : (c : Dev nD) → Buf (Elt F) ((c : Thread nD τ).loc main_v19)) (c : Dev nD) :
    Gen.V7 m (leftBy m G) c = Gen.V7 m (early m) c := by
  show StableHlo.after hostOps1 (Function.update (Gen.V5 m c) (Proc.devRef .tc main_v17) (leftBy m G 6 main_v17 c))
    = StableHlo.after hostOps1 (Function.update (Gen.V5 m c) (Proc.devRef .tc main_v17) (leftBy m _ 6 main_v17 c))
  rw [leftBy_hidden, leftBy_hidden]

/-- A result for every core from a result `g` on core `c`. -/
def resultAt (c : Dev nD) (g : Buf (Elt F) ((c : Thread nD τ).loc main_v19)) : (c' : Dev nD) → Buf (Elt F) ((c' : Thread nD τ).loc main_v19) :=
  Function.update (fun c' => m ((c' : Thread nD τ).loc main_v19)) c g

theorem resultAt_self (c : Dev nD) (g) : resultAt m c g c = g := Function.update_self ..

/-- The head's arrays after it: the three inputs as found, the result at `g`. -/
def headArrays (c : Dev nD) (g : Buf (Elt F) ((c : Thread nD τ).loc main_v19)) :
    (w : Fin cfg1.W) → Buf (Elt F) ((cfg1.win w).arr.view.loc (c : Thread nD τ))
  | ⟨0, _⟩ => (pdats m 1 c).A 0
  | ⟨1, _⟩ => (pdats m 1 c).A 1
  | ⟨2, _⟩ => (pdats m 1 c).A 2
  | ⟨3, _⟩ => g

theorem head_left (c : Dev nD) (g) : ∀ w : Fin cfg1.W,
    headArrays m c g w = Gen.V8 m (leftBy m (resultAt m c g)) c (Pipeline.arrRef spec1 w)
  | ⟨0, _⟩ => ((Gen.V8_of m _ c main_v17 (by decide)).trans (congrFun (before_head m _ c) _)).symm
  | ⟨1, _⟩ => ((Gen.V8_of m _ c main_arg9 (by decide)).trans (congrFun (before_head m _ c) _)).symm
  | ⟨2, _⟩ => ((Gen.V8_of m _ c main_v18 (by decide)).trans (congrFun (before_head m _ c) _)).symm
  | ⟨3, _⟩ => by
    show g = Function.update (Gen.V7 m _ c) (Proc.devRef .tc main_v19) (leftBy m (resultAt m c g) 8 main_v19 c) (Proc.devRef .tc main_v19)
    rw [Function.update_self, leftBy_result, resultAt_self]

theorem head_kept (c : Dev nD) (g) (b : Ref sig .tc) (hb : b ∉ Finset.univ.image (Pipeline.arrRef spec1)) :
    Gen.V8 m (leftBy m (resultAt m c g)) c b = atHead m c b :=
  (Gen.V8_of m _ c b fun h => hb (Finset.mem_image.mpr ⟨3, Finset.mem_univ _, (List.mem_singleton.mp h).symm⟩)).trans
    (congrFun (before_head m _ c) _)

/-- After the last write-back the head's arrays hold: the inputs what they held, the result something. -/
theorem head_arrays_out (c : Dev nD) :
    (rdats m 1 c).arraysAt cfg1.N ⊢ (iprop(∃ g, (pdats m 1 c).arrays (headArrays m c g)) : sProp 𝕄) := by
  unfold RDat.arraysAt Dat.arrays
  rw [bigSep_W1]
  iintro ⟨⟨%F0, %h0, H0⟩, ⟨%F1, %h1, H1⟩, ⟨%F2, %h2, H2⟩, ⟨%F3, %h3, H3⟩⟩
  have e0 : F0 = (pdats m 1 c).A 0 :=
    (((pdats m 1 c).toRForget_arrAt_iff (fgt := Head.forgetResult) (w := 0) rfl _ _).mp h0).trans ((pdats m 1 c).arrAt_in 0 rfl _)
  have e1 : F1 = (pdats m 1 c).A 1 :=
    (((pdats m 1 c).toRForget_arrAt_iff (fgt := Head.forgetResult) (w := 1) rfl _ _).mp h1).trans ((pdats m 1 c).arrAt_in 1 rfl _)
  have e2 : F2 = (pdats m 1 c).A 2 :=
    (((pdats m 1 c).toRForget_arrAt_iff (fgt := Head.forgetResult) (w := 2) rfl _ _).mp h2).trans ((pdats m 1 c).arrAt_in 2 rfl _)
  subst e0 e1 e2
  iexists F3
  rw [bigSep_W1]
  isplitl [H0]; · iexact H0
  isplitl [H1]; · iexact H1
  isplitl [H2]; · iexact H2
  iexact H3

set_option backward.isDefEq.respectTransparency.types false in
/-- The second region as an item of the program: entered from the contents the reshape of the bias leaves, left at
    contents that agree with those off the result's array, which holds something. -/
def headSeg : Pipeline.RDat.RegionSeg (pcfgs (F := F)) Gen.adm (rdats m) () defs₀ 𝒱₀ L lv 1 where
  win := launch1.win.to₀
  block_pos := launch1.block_pos
  stage_whole := launch1.stage_whole
  K := PEmpty
  osem k := k.elim
  ho := Pipeline.OwnSemFacts.none _
  hbody c := (Head.body_obligation_forgetting (atHead m) c).toRForget
  hwaits := Pipeline.RDat.hwaits_of_owed_zero _ _ _ _ L lv 1 fun _ _ => rfl
  pre c := iprop(StableHlo.held (c : Thread nD τ) (Pipeline.ucRefs τ sig) (Gen.V7 m (early m) c) ∗ R c)
  post c := iprop(∃ G, StableHlo.held (c : Thread nD τ) (Pipeline.ucRefs τ sig) (Gen.V8 m (leftBy m G) c) ∗ R c)
  X c := iprop(∃ r, prngReg c r)
  Y c := iprop(∃ r, prngReg c r)
  Z c := Pipeline.unscopedRest (Ix := Unit) (Name := ℕ) (U := UR sig nD τ) (Lvl := ℕ) spec1 c (atHead m c)
  hentry c := by
    rw [Pipeline.ownSems0_none]
    have hsplit := Pipeline.RDat.arrays_of_unscopedBufs (p := 1) (pcfgs (F := F)) Gen.adm (rdats m) launch1.win launch1.arr_whole c
      (fun w => (congrFun ((pdats m 1 c).toRForget_share _) w).trans ((pdats m 1 c).share_full (fun _ => rfl) w)) (atHead m c) fun _ => rfl
    rw [Pipeline.unscopedBufs_held] at hsplit
    refine (sep_mono (sep_mono hsplit .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    refine (sep_mono (head_arrays_out m c) .rfl).trans ?_
    iintro ⟨⟨%g, Ha'⟩, HO, HY, Hrest⟩
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atHead m c) (fun b => Gen.V8 m (leftBy m (resultAt m c g)) c b) (headArrays m c g) (head_left m c g) (head_kept m c g)
    rw [Pipeline.unscopedBufs_held] at hjoin
    imodintro
    iexists resultAt m c g
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-! ## The program as its items, and the run -/

/-- Beside the buffers every generated host segment carries `R`. -/
abbrev rests : Fin 3 → Dev nD → sProp 𝕄 := fun _ => R

/-- The last host stretch (the result reshaped to its three axes) from contents of which only the existence is known:
    for each such contents it is the generated segment there. -/
def lastSeg : Pipeline.HostSeg (Name := ℕ) (U := UR sig nD τ) (pcfgs (F := F)) defs₀ 𝒱₀ L lv where
  prog := StableHlo.seq hostOps2
  pre c := iprop(∃ G, (Gen.seg8 (Ix := Unit) (U := UR sig nD τ) (Lvl := ℕ) m (leftBy m G) 𝒱₀ L lv rests).pre c)
  post c := iprop(∃ G, (Gen.seg8 (Ix := Unit) (U := UR sig nD τ) (Lvl := ℕ) m (leftBy m G) 𝒱₀ L lv rests).post c)
  run c {β} k K := by
    iintro ⟨Hk, Hbd, ⟨%G, Hpre⟩, Hl⟩
    iapply ((Gen.seg8 (Ix := Unit) (U := UR sig nD τ) (Lvl := ℕ) m (leftBy m G) 𝒱₀ L lv rests).run c k K)
    isplitl [Hk]
    · iintro ⟨Hb, Hpost⟩
      iapply Hk
      isplitl [Hb]; · iexact Hb
      iexists G; iexact Hpost
    isplitl [Hbd]; · iexact Hbd
    isplitl [Hpre]; · iexact Hpre
    iexact Hl

/-- The program's nine items in order. -/
abbrev items : List (Pipeline.RDat.Seg (pcfgs (F := F)) Gen.adm (rdats m) () defs₀ 𝒱₀ L lv) :=
  [.host (Gen.seg0 m 𝒱₀ L lv rests), .host (Gen.seg1 m 𝒱₀ L lv rests), .host (Gen.seg2 m 𝒱₀ L lv rests),
   .host (Gen.seg3 m 𝒱₀ L lv rests), .host (Gen.seg4 m 𝒱₀ L lv rests), .region (trunkSeg m),
   .host (Gen.seg6 m (early m) 𝒱₀ L lv rests), .region (headSeg m), .host (lastSeg m)]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program from a memory with zero counters ends, faults nowhere, and leaves each of the
    eleven argument arrays as launched: no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.RDat.θ_run_regions_kit (pcfgs (F := F)) Gen.adm (rdats m) () cellOf_inj emb₁ defs₀ 𝒱₀ L lv m ρ main (items m)
    (fun c Q => by
      rw [main_chain c, Pipeline.RDat.Seg.run_eq_chain]
      exact .rfl)
    (by simp only [items, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(∃ G, StableHlo.held (c : Thread nD τ) (Pipeline.ucRefs τ sig) (Gen.V9 m (leftBy m G) c) ∗ ∃ r, prngReg c r))
    (hch := ⟨fun _ => .rfl, fun _ => .rfl, fun _ => .rfl, fun _ => .rfl, fun _ => .rfl, fun _ => .rfl, fun _ => .rfl, fun _ => .rfl,
      fun _ => .rfl, fun c => by
        show iprop(∃ G, StableHlo.held (c : Thread nD τ) (Pipeline.ucRefs τ sig) (Gen.V9 m (leftBy m G) c) ∗ R c) ⊢ _
        iintro ⟨%G, Hh, Hp, HO⟩
        isplitl [Hh Hp]
        · iexists G
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∃ G, ∀ b ∈ Pipeline.ucRefs τ sig, s.mem (((c : Thread nD τ)).1, b) = Gen.V9 m (leftBy m G) c b)
    (hfin := fun c s' => by
      iintro ⟨⟨%G, Hh, -⟩, HSI⟩
      unfold StableHlo.held
      imodintro
      iapply ((pointsTo_read_all (Pipeline.ucRefs τ sig) (fun b => (((c : Thread nD τ)).1, b)) (Gen.V9 m (leftBy m G) c) s').trans
        (sep_mono (BI.pure_mono fun h => ⟨G, h⟩) .rfl))
      isplitl [Hh] <;> iassumption)
    (hQ := fun s h c => by
      obtain ⟨G, hG⟩ := h c
      exact ⟨(hG _ (mem_uc main_arg0 (by decide))).trans (Gen.V9_main_arg0 m (leftBy m G) c),
        (hG _ (mem_uc main_arg1 (by decide))).trans (Gen.V9_main_arg1 m (leftBy m G) c),
        (hG _ (mem_uc main_arg2 (by decide))).trans (Gen.V9_main_arg2 m (leftBy m G) c),
        (hG _ (mem_uc main_arg3 (by decide))).trans (Gen.V9_main_arg3 m (leftBy m G) c),
        (hG _ (mem_uc main_arg4 (by decide))).trans (Gen.V9_main_arg4 m (leftBy m G) c),
        (hG _ (mem_uc main_arg5 (by decide))).trans (Gen.V9_main_arg5 m (leftBy m G) c),
        (hG _ (mem_uc main_arg6 (by decide))).trans (Gen.V9_main_arg6 m (leftBy m G) c),
        (hG _ (mem_uc main_arg7 (by decide))).trans (Gen.V9_main_arg7 m (leftBy m G) c),
        (hG _ (mem_uc main_arg8 (by decide))).trans (Gen.V9_main_arg8 m (leftBy m G) c),
        (hG _ (mem_uc main_arg9 (by decide))).trans (Gen.V9_main_arg9 m (leftBy m G) c),
        (hG _ (mem_uc main_arg10 (by decide))).trans (Gen.V9_main_arg10 m (leftBy m G) c)⟩)

end Cert.Kernel.Frames

end
-- ==== Proof.Products.lean ====
/-
  The kernel's four block products, read entry by entry at the extended reals: a product into a zero accumulator is, at
  row p and column q, the sum over the contracted positions k of (left factor at (p, k)) · (right factor at (k, q)) — no
  rounding, no chunk order. One statement per block shape.
-/
import proofs.«157737_j67053029425158_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Products

open Cert.KernelIdeal Cert.KernelIdeal.Gen
open Idealize.ShloMosaic Idealize.ShloMosaic.TcCoe Idealize.ShloMosaic.ValueIdx

/-- The first block product into a zero accumulator, entry by entry: the sum over the 128 contracted positions of
    the left factor's row entry times the right factor's column entry. -/
theorem product_first {φ₁ φ₂ : FTy} (l : FVec Ideal S512x128 φ₁) (r : FVec Ideal S128x256 φ₂) (i : S512x256.Idx) :
    matmul dot_S512x128_S128x256_S512x256_1_0_0_1_n_n none l r (constant S512x256 .f32 0x00000000#32) i
      = ∑ k : Fin 128, l (ix2 (i 0) k) * r (ix2 k (i 1)) := by
  simp only [matmul]
  rw [Ideal.matmul_constant_zero_apply, ← Equiv.sum_comp (ValueIdx.contrEquiv1 dot_S512x128_S128x256_S512x256_1_0_0_1_n_n 128 rfl rfl).symm]
  refine Finset.sum_congr rfl fun k _ => ?_
  have hk := ValueIdx.contrEquiv1_symm_val dot_S512x128_S128x256_S512x256_1_0_0_1_n_n 128 rfl rfl k
  have el : dot_S512x128_S128x256_S512x256_1_0_0_1_n_n.lhsIdx i ((ValueIdx.contrEquiv1 dot_S512x128_S128x256_S512x256_1_0_0_1_n_n 128 rfl rfl).symm k) = ix2 (i 0) k := funext fun a => Fin.ext (by
    match a with
    | ⟨0, _⟩ =>
      show (dot_S512x128_S128x256_S512x256_1_0_0_1_n_n.lhsIdx i _ 0).val = (i 0).val
      unfold DotDims.lhsIdx
      rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
      rfl
    | ⟨1, _⟩ => exact (dot_S512x128_S128x256_S512x256_1_0_0_1_n_n.lhsIdx_val_of_single rfl i _).trans hk)
  have er : dot_S512x128_S128x256_S512x256_1_0_0_1_n_n.rhsIdx i ((ValueIdx.contrEquiv1 dot_S512x128_S128x256_S512x256_1_0_0_1_n_n 128 rfl rfl).symm k) = ix2 k (i 1) := funext fun a => Fin.ext (by
    match a with
    | ⟨0, _⟩ => exact (dot_S512x128_S128x256_S512x256_1_0_0_1_n_n.rhsIdx_val_of_single rfl i _).trans hk
    | ⟨1, _⟩ =>
      show (dot_S512x128_S128x256_S512x256_1_0_0_1_n_n.rhsIdx i _ 1).val = (i 1).val
      unfold DotDims.rhsIdx
      rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
      rfl)
  exact congrArg₂ (· * ·) (congrArg l el) (congrArg r er)

/-- The second block product into a zero accumulator, entry by entry: the sum over the 256 contracted positions of
    the left factor's row entry times the right factor's column entry. -/
theorem product_second {φ₁ φ₂ : FTy} (l : FVec Ideal S512x256 φ₁) (r : FVec Ideal S256x512 φ₂) (i : S512x512.Idx) :
    matmul dot_S512x256_S256x512_S512x512_1_0_0_1_n_n none l r (constant S512x512 .f32 0x00000000#32) i
      = ∑ k : Fin 256, l (ix2 (i 0) k) * r (ix2 k (i 1)) := by
  simp only [matmul]
  rw [Ideal.matmul_constant_zero_apply, ← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx i ((ValueIdx.contrEquiv1 dot_S512x256_S256x512_S512x512_1_0_0_1_n_n 256 rfl rfl).symm k) = ix2 (i 0) k := funext fun a => Fin.ext (by
    match a with
    | ⟨0, _⟩ =>
      show (dot_S512x256_S256x512_S512x512_1_0_0_1_n_n.lhsIdx i _ 0).val = (i 0).val
      unfold DotDims.lhsIdx
      rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
      rfl
    | ⟨1, _⟩ => exact (dot_S512x256_S256x512_S512x512_1_0_0_1_n_n.lhsIdx_val_of_single rfl i _).trans hk)
  have er : dot_S512x256_S256x512_S512x512_1_0_0_1_n_n.rhsIdx i ((ValueIdx.contrEquiv1 dot_S512x256_S256x512_S512x512_1_0_0_1_n_n 256 rfl rfl).symm k) = ix2 k (i 1) := funext fun a => Fin.ext (by
    match a with
    | ⟨0, _⟩ => exact (dot_S512x256_S256x512_S512x512_1_0_0_1_n_n.rhsIdx_val_of_single rfl i _).trans hk
    | ⟨1, _⟩ =>
      show (dot_S512x256_S256x512_S512x512_1_0_0_1_n_n.rhsIdx i _ 1).val = (i 1).val
      unfold DotDims.rhsIdx
      rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
      rfl)
  exact congrArg₂ (· * ·) (congrArg l el) (congrArg r er)

/-- The third block product into a zero accumulator, entry by entry: the sum over the 512 contracted positions of
    the left factor's row entry times the right factor's column entry. -/
theorem product_third {φ₁ φ₂ : FTy} (l : FVec Ideal S512x512 φ₁) (r : FVec Ideal S512x1024 φ₂) (i : S512x1024.Idx) :
    matmul dot_S512x512_S512x1024_S512x1024_1_0_0_1_n_n none l r (constant S512x1024 .f32 0x00000000#32) i
      = ∑ k : Fin 512, l (ix2 (i 0) k) * r (ix2 k (i 1)) := by
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx i ((ValueIdx.contrEquiv1 dot_S512x512_S512x1024_S512x1024_1_0_0_1_n_n 512 rfl rfl).symm k) = ix2 (i 0) k := funext fun a => Fin.ext (by
    match a with
    | ⟨0, _⟩ =>
      show (dot_S512x512_S512x1024_S512x1024_1_0_0_1_n_n.lhsIdx i _ 0).val = (i 0).val
      unfold DotDims.lhsIdx
      rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
      rfl
    | ⟨1, _⟩ => exact (dot_S512x512_S512x1024_S512x1024_1_0_0_1_n_n.lhsIdx_val_of_single rfl i _).trans hk)
  have er : dot_S512x512_S512x1024_S512x1024_1_0_0_1_n_n.rhsIdx i ((ValueIdx.contrEquiv1 dot_S512x512_S512x1024_S512x1024_1_0_0_1_n_n 512 rfl rfl).symm k) = ix2 k (i 1) := funext fun a => Fin.ext (by
    match a with
    | ⟨0, _⟩ => exact (dot_S512x512_S512x1024_S512x1024_1_0_0_1_n_n.rhsIdx_val_of_single rfl i _).trans hk
    | ⟨1, _⟩ =>
      show (dot_S512x512_S512x1024_S512x1024_1_0_0_1_n_n.rhsIdx i _ 1).val = (i 1).val
      unfold DotDims.rhsIdx
      rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
      rfl)
  exact congrArg₂ (· * ·) (congrArg l el) (congrArg r er)

/-- The head block product into a zero accumulator, entry by entry: the sum over the 1024 contracted positions of
    the left factor's row entry times the right factor's column entry. -/
theorem product_head {φ₁ φ₂ : FTy} (l : FVec Ideal S1024x1024 φ₁) (r : FVec Ideal S1024x1280 φ₂) (i : S1024x1280.Idx) :
    matmul dot_S1024x1024_S1024x1280_S1024x1280_1_0_0_1_n_n none l r (constant S1024x1280 .f32 0x00000000#32) i
      = ∑ k : Fin 1024, l (ix2 (i 0) k) * r (ix2 k (i 1)) := by
  simp only [matmul]
  rw [Ideal.matmul_constant_zero_apply, ← Equiv.sum_comp (ValueIdx.contrEquiv1 dot_S1024x1024_S1024x1280_S1024x1280_1_0_0_1_n_n 1024 rfl rfl).symm]
  refine Finset.sum_congr rfl fun k _ => ?_
  have hk := ValueIdx.contrEquiv1_symm_val dot_S1024x1024_S1024x1280_S1024x1280_1_0_0_1_n_n 1024 rfl rfl k
  have el : dot_S1024x1024_S1024x1280_S1024x1280_1_0_0_1_n_n.lhsIdx i ((ValueIdx.contrEquiv1 dot_S1024x1024_S1024x1280_S1024x1280_1_0_0_1_n_n 1024 rfl rfl).symm k) = ix2 (i 0) k := funext fun a => Fin.ext (by
    match a with
    | ⟨0, _⟩ =>
      show (dot_S1024x1024_S1024x1280_S1024x1280_1_0_0_1_n_n.lhsIdx i _ 0).val = (i 0).val
      unfold DotDims.lhsIdx
      rw [dif_neg (show ¬(0 : Fin S1024x1024.rank) ∈ dot_S1024x1024_S1024x1280_S1024x1280_1_0_0_1_n_n.lhsBatch by decide), dif_pos (show (0 : Fin S1024x1024.rank) ∈ dot_S1024x1024_S1024x1280_S1024x1280_1_0_0_1_n_n.lhsNonContracting by decide)]
      rfl
    | ⟨1, _⟩ => exact (dot_S1024x1024_S1024x1280_S1024x1280_1_0_0_1_n_n.lhsIdx_val_of_single rfl i _).trans hk)
  have er : dot_S1024x1024_S1024x1280_S1024x1280_1_0_0_1_n_n.rhsIdx i ((ValueIdx.contrEquiv1 dot_S1024x1024_S1024x1280_S1024x1280_1_0_0_1_n_n 1024 rfl rfl).symm k) = ix2 k (i 1) := funext fun a => Fin.ext (by
    match a with
    | ⟨0, _⟩ => exact (dot_S1024x1024_S1024x1280_S1024x1280_1_0_0_1_n_n.rhsIdx_val_of_single rfl i _).trans hk
    | ⟨1, _⟩ =>
      show (dot_S1024x1024_S1024x1280_S1024x1280_1_0_0_1_n_n.rhsIdx i _ 1).val = (i 1).val
      unfold DotDims.rhsIdx
      rw [dif_neg (show ¬(1 : Fin S1024x1280.rank) ∈ dot_S1024x1024_S1024x1280_S1024x1280_1_0_0_1_n_n.rhsBatch by decide), dif_pos (show (1 : Fin S1024x1280.rank) ∈ dot_S1024x1024_S1024x1280_S1024x1280_1_0_0_1_n_n.rhsNonContracting by decide)]
      rfl)
  exact congrArg₂ (· * ·) (congrArg l el) (congrArg r er)

end Cert.KernelIdeal.Products

end
-- ==== Proof.HeadExact.lean ====
/-
  The second region at the extended reals. An entry of its value at row p and column q of a block is

      logistic( Σ_k hidden(p, k) · weight(k, q)  +  bias(0, q) ),

  so it reads the weight buffer and the bias buffer only in column q. The last block's transfers move only its first 769
  columns, the same for the weight, bias and result windows; what the buffers hold in the other columns is whatever was
  there. Hence on the columns a write-back moves, the value does not depend on those leftover words: the result window's
  buffer can be named, and the body's obligation holds with no window forgotten.
-/
import proofs.«157737_j67053029425158_2_alg».proof.Proof.Head
import proofs.«157737_j67053029425158_2_alg».proof.Proof.Products
import Idealize.ShloMosaic.Lib.ValueLayout
import Idealize.ShloMosaic.PureOps.Ideal
import Idealize.ShloMosaic.PureOps.Ideal.Laws

noncomputable section

namespace Cert.KernelIdeal.HeadExact

open Cert.KernelIdeal Cert.KernelIdeal.Gen Cert.KernelIdeal.Head Cert.KernelIdeal.Products
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The head's value at row p, column q. -/
theorem entry (x0 : Vec Ideal S1024x1024 .bf16) (x2 : Vec Ideal S1024x1280 .f32) (x5 : Vec Ideal S1x1280 .f32)
    (p : Fin 1024) (q : Fin 1280) :
    k1_pay1 x0 x2 x5 (ix2 p q)
      = Ideal.logistic ((∑ k : Fin 1024, x0 (ix2 p k) * x2 (ix2 k q)) + x5 (ix2 (0 : Fin 1) q)) := by
  unfold k1_pay1
  show Ideal.logistic (matmul (F := Ideal) dot_S1024x1024_S1024x1280_S1024x1280_1_0_0_1_n_n none
        (shapeCast S1024x1024 x0 shapeCasts_S1024x1024_S1024x1024) (truncf .bf16 x2 bitsLt_bf16_f32) (constant S1024x1280 .f32 0x00000000#32) (ix2 p q)
      + broadcastTo S1024x1280 (shapeCast S1x1280 x5 shapeCasts_S1x1280_S1x1280) broadcasts_S1x1280_S1024x1280 (ix2 p q)) = _
  rw [product_head, broadcastTo_1b_ab_apply, shapeCast_self, shapeCast_self]
  rfl

/-- Two weight buffers that agree in column q, and two bias buffers that agree there, give the same value in column q. -/
theorem entry_congr (x0 : Vec Ideal S1024x1024 .bf16) (x2 x2' : Vec Ideal S1024x1280 .f32) (x5 x5' : Vec Ideal S1x1280 .f32)
    (p : Fin 1024) (q : Fin 1280) (h2 : ∀ k : Fin 1024, x2 (ix2 k q) = x2' (ix2 k q)) (h5 : x5 (ix2 (0 : Fin 1) q) = x5' (ix2 (0 : Fin 1) q)) :
    k1_pay1 x0 x2 x5 (ix2 p q) = k1_pay1 x0 x2' x5' (ix2 p q) := by
  rw [entry, entry, h5]
  exact congrArg (fun s => Ideal.logistic (s + x5' (ix2 (0 : Fin 1) q))) (Finset.sum_congr rfl fun k _ => by rw [h2 k])

/-! ## Which entries of a block the transfers move -/

/-- A filled block at an entry the transfers move does not depend on the filler. -/
theorem fill_moved {G : Pipeline.Grid} (w : Window sig G) {α : Type} (i : G.Coords) (d d' : w.block.Idx → α) (g : (w.xblock i).Idx → α)
    {j : w.block.Idx} (h : w.moved i j = true) : w.fill i d g j = w.fill i d' g j := by
  unfold Window.fill; rw [dif_pos h, dif_pos h]

/-- The weight window moves entry (k, q) exactly when the result window moves an entry of column q: all rows move, and the
    two windows cut their columns alike. -/
theorem weight_moved (i : grid1.Coords) (J : S1024x1280.Idx) (k : Fin 1024) (h : win1_3.moved i J = true) :
    win1_1.moved i (ix2 k (J 1)) = true := by
  rw [Window.moved_iff] at h ⊢
  intro a
  match a with
  | ⟨0, _⟩ => exact k.isLt
  | ⟨1, _⟩ => exact h 1

/-- Likewise the bias window moves entry (0, q). -/
theorem bias_moved (i : grid1.Coords) (J : S1024x1280.Idx) (h : win1_3.moved i J = true) :
    win1_2.moved i (ix2 (0 : Fin 1) (J 1)) = true := by
  rw [Window.moved_iff] at h ⊢
  intro a
  match a with
  | ⟨0, _⟩ => exact Nat.zero_lt_one
  | ⟨1, _⟩ => exact h 1

/-- On the part of the result's block that is written back, the head's value from filled-out weight and bias blocks does not
    depend on the fillers. -/
theorem cut_scores (i : grid1.Coords) (x0 : Vec Ideal S1024x1024 .bf16) (d1 d1' : S1024x1280.Idx → Elt Ideal .f32)
    (g1 : (win1_1.xblock i).Idx → Elt Ideal .f32) (d2 d2' : S1x1280.Idx → Elt Ideal .f32) (g2 : (win1_2.xblock i).Idx → Elt Ideal .f32) :
    win1_3.cut i (k1_pay1 x0 (win1_1.fill i d1 g1) (win1_2.fill i d2 g2))
      = win1_3.cut i (k1_pay1 x0 (win1_1.fill i d1' g1) (win1_2.fill i d2' g2)) := by
  funext j
  show k1_pay1 x0 _ _ (win1_3.xinj i j) = k1_pay1 x0 _ _ (win1_3.xinj i j)
  have hm := win1_3.moved_xinj i j
  rw [eq_ix2 (win1_3.xinj i j)]
  exact entry_congr x0 _ _ _ _ _ _ (fun k => fill_moved win1_1 i d1 d1' g1 (weight_moved i _ k hm))
    (fill_moved win1_2 i d2 d2' g2 (bias_moved i _ hm))

/-! ## The obligation, no window forgotten -/

-- the buffers' contents when the region is entered: a parameter here, fixed by the run
variable (V : (c : Dev nD) → (b : Ref sig .tc) → Buf (Elt Ideal) ((c : Thread nD τ).loc b))

/-- The body at point t: the result's buffer ends at the head's value of what the three input buffers held, which on the part
    written back is the value named by the proof data. -/
theorem at_point (c : Dev nD) (t : Fin cfg1.N) :
    iprop((dat V c).Φ t.castSucc ∗ (dat V c).owesAt () t.castSucc
        ∗ (∃ d : S1024x1024.Idx → Elt Ideal .bf16, owns (c : Thread nD τ) (st1_0 t) fullShare (blockAt V c 0 t))
        ∗ (∃ d, owns (c : Thread nD τ) (st1_1 t) fullShare (win1_1.fill (grid1.coords t) d (blockAt V c 1 t)))
        ∗ (∃ d, owns (c : Thread nD τ) (st1_2 t) fullShare (win1_2.fill (grid1.coords t) d (blockAt V c 2 t)))
        ∗ (∃ d : S1024x1280.Idx → Elt Ideal .f32, owns (c : Thread nD τ) (st1_3 t) fullShare d))
      ⊢ wp frame (wpE (defs₀ (F := Ideal)) Variants.none c none) Set.univ (bodyAt1 t) (fun _ =>
          iprop((dat V c).Φ t.succ ∗ (dat V c).owesAt () t.succ
            ∗ owns (c : Thread nD τ) (st1_0 t) fullShare (blockAt V c 0 t)
            ∗ (∃ d, owns (c : Thread nD τ) (st1_1 t) fullShare
                (win1_1.fill (grid1.coords t) d (win1_1.cut (grid1.coords t) (weights V c t))))
            ∗ (∃ d, owns (c : Thread nD τ) (st1_2 t) fullShare
                (win1_2.fill (grid1.coords t) d (win1_2.cut (grid1.coords t) (bias V c t))))
            ∗ (∃ d, owns (c : Thread nD τ) (st1_3 t) fullShare
                (win1_3.fill (grid1.coords t) d (win1_3.cut (grid1.coords t) (scores V c t)))))) := by
  rw [show (dat V c).Φ t.succ = (dat V c).Φ t.castSucc from rfl,
    show (dat V c).owesAt () t.succ = (dat V c).owesAt () t.castSucc from rfl, cut_weights, cut_bias]
  unfold bodyAt1
  iintro ⟨HΦ, Ho, ⟨%d0, H0⟩, ⟨%d1, H1⟩, ⟨%d2, H2⟩, ⟨%d3, H3⟩⟩
  iapply (body_run c Set.univ _ _ _ _ _ _ _ _ _ (blockAt V c 0 t) (win1_1.fill (grid1.coords t) d1 (blockAt V c 1 t))
    (win1_2.fill (grid1.coords t) d2 (blockAt V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists k1_pay1 (blockAt V c 0 t) (win1_1.fill (grid1.coords t) d1 (blockAt V c 1 t)) (win1_2.fill (grid1.coords t) d2 (blockAt V c 2 t))
  have e : win1_3.fill (grid1.coords t)
        (k1_pay1 (blockAt V c 0 t) (win1_1.fill (grid1.coords t) d1 (blockAt V c 1 t)) (win1_2.fill (grid1.coords t) d2 (blockAt V c 2 t)))
        (win1_3.cut (grid1.coords t) (scores V c t))
      = k1_pay1 (blockAt V c 0 t) (win1_1.fill (grid1.coords t) d1 (blockAt V c 1 t)) (win1_2.fill (grid1.coords t) d2 (blockAt V c 2 t)) :=
    win1_3.fill_congr_cut (grid1.coords t) (cut_scores (grid1.coords t) (blockAt V c 0 t) d1 (fun _ => zeroWord) (blockAt V c 1 t) d2 (fun _ => zeroWord) (blockAt V c 2 t))
  rw [e]
  iexact H3

theorem body_obligation (c : Dev nD) :
    BodyObligationLoose (dat (F := Ideal) V c) (defs₀ (F := Ideal)) Variants.none () Set.univ := fun t => by
  rw [bigSep_W1, bigSep_W1]
  simp only [found_0, found_1, found_2, found_3, left_0, left_1, left_2, left_3]
  exact at_point V c t

end Cert.KernelIdeal.HeadExact

end
-- ==== Proof.ExactRun.lean ====
/-
  The idealized kernel's run with both regions' results named. At the extended reals what the second region writes IS a
  function of the launch memory (an entry of a product reads only its own column of the right factor, never a word past the
  array's end), so here no window is forgotten: after the first region the hidden layer's array holds the two row blocks
  written back, after the second the result's array holds the 52 column blocks written back, and the last reshape is read off
  the final contents.
-/
import proofs.«157737_j67053029425158_2_alg».proof.Proof.Frames
import proofs.«157737_j67053029425158_2_alg».proof.Proof.HeadExact
import Idealize.ShloMosaic.PureOps.Ideal
import Idealize.ShloMosaic.PureOps.Ideal.Laws

noncomputable section

namespace Cert.KernelIdeal.Exact

open Cert.KernelIdeal Cert.KernelIdeal.Gen Cert.KernelIdeal.Frames
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The result as the second region leaves it: the 52 column blocks written back in turn. -/
def resultLeft (c : Dev nD) : Buf (Elt Ideal) ((c : Thread nD τ).loc main_v19) := (Head.dat (atHead m) c).arrAt 3 cfg1.N

/-- Both regions' results, named. -/
abbrev named : Gen.Outs (F := Ideal) := leftBy m (resultLeft m)

theorem head_named (c : Dev nD) : ∀ w : Fin cfg1.W,
    (pdats m 1 c).arrAt w cfg1.N = Gen.V8 m (named m) c (Pipeline.arrRef spec1 w)
  | ⟨0, _⟩ => ((pdats m 1 c).arrAt_in 0 rfl _).trans ((Gen.V8_of m _ c main_v17 (by decide)).trans (congrFun (before_head m _ c) _)).symm
  | ⟨1, _⟩ => ((pdats m 1 c).arrAt_in 1 rfl _).trans ((Gen.V8_of m _ c main_arg9 (by decide)).trans (congrFun (before_head m _ c) _)).symm
  | ⟨2, _⟩ => ((pdats m 1 c).arrAt_in 2 rfl _).trans ((Gen.V8_of m _ c main_v18 (by decide)).trans (congrFun (before_head m _ c) _)).symm
  | ⟨3, _⟩ => by
    show resultLeft m c = Function.update (Gen.V7 m _ c) (Proc.devRef .tc main_v19) (leftBy m (resultLeft m) 8 main_v19 c) (Proc.devRef .tc main_v19)
    rw [Function.update_self, leftBy_result]

theorem head_rest (c : Dev nD) (b : Ref sig .tc) (hb : b ∉ Finset.univ.image (Pipeline.arrRef spec1)) :
    Gen.V8 m (named m) c b = atHead m c b :=
  (Gen.V8_of m _ c b fun h => hb (Finset.mem_image.mpr ⟨3, Finset.mem_univ _, (List.mem_singleton.mp h).symm⟩)).trans
    (congrFun (before_head m _ c) _)

set_option backward.isDefEq.respectTransparency.types false in
def trunkSeg : Pipeline.RegionSeg (pcfgs (F := Ideal)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Trunk.body_obligation (atTrunk m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (early m) c) ∗ R c)
  X c := iprop(∃ r, prngReg c r)
  Y c := iprop(∃ r, prngReg c r)
  Z c := Pipeline.unscopedRest (Ix := Unit) (Name := ℕ) (U := UR sig nD τ) (Lvl := ℕ) spec0 c (atTrunk m c)
  hentry c := by
    rw [Pipeline.ownSems0_none]
    have hsplit := Pipeline.arrays_of_unscopedBufs (p := 0) (pcfgs (F := Ideal)) Gen.adm (pdats m) launch0.win launch0.arr_whole c
      ((pdats m 0 c).share_full fun _ => rfl) (atTrunk m c) fun _ => rfl
    rw [Pipeline.unscopedBufs_held] at hsplit
    refine (sep_mono (sep_mono hsplit .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) Gen.adm (Ix := Unit) (Name := ℕ) (U := UR sig nD τ) (Lvl := ℕ)
      launch0.win launch0.arr_whole c (pdats m) ((pdats m 0 c).share_full fun _ => rfl)
      (atTrunk m c) (fun b => Gen.V6 m (early m) c b) ((pdats m 0 c).arrAt · cfg0.N) (trunk_left m c) (trunk_kept m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def headSeg : Pipeline.RegionSeg (pcfgs (F := Ideal)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := HeadExact.body_obligation (atHead m) c
  hwaits := Pipeline.hwaits_of_owed_zero _ _ _ _ L lv 1 fun _ _ => rfl
  pre c := iprop(StableHlo.held (c : Thread nD τ) (Pipeline.ucRefs τ sig) (Gen.V7 m (early m) c) ∗ R c)
  post c := iprop(StableHlo.held (c : Thread nD τ) (Pipeline.ucRefs τ sig) (Gen.V8 m (named m) c) ∗ R c)
  X c := iprop(∃ r, prngReg c r)
  Y c := iprop(∃ r, prngReg c r)
  Z c := Pipeline.unscopedRest (Ix := Unit) (Name := ℕ) (U := UR sig nD τ) (Lvl := ℕ) spec1 c (atHead m c)
  hentry c := by
    rw [Pipeline.ownSems0_none]
    have hsplit := Pipeline.arrays_of_unscopedBufs (p := 1) (pcfgs (F := Ideal)) Gen.adm (pdats m) launch1.win launch1.arr_whole c
      ((pdats m 1 c).share_full fun _ => rfl) (atHead m c) fun _ => rfl
    rw [Pipeline.unscopedBufs_held] at hsplit
    refine (sep_mono (sep_mono hsplit .rfl) .rfl).trans ?_
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) Gen.adm (Ix := Unit) (Name := ℕ) (U := UR sig nD τ) (Lvl := ℕ)
      launch1.win launch1.arr_whole c (pdats m) ((pdats m 1 c).share_full fun _ => rfl)
      (atHead m c) (fun b => Gen.V8 m (named m) c b) ((pdats m 1 c).arrAt · cfg1.N) (head_named m c) (head_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev items : List (Pipeline.Seg (pcfgs (F := Ideal)) Gen.adm (pdats m) () defs₀ 𝒱₀ L lv) :=
  [.host (Gen.seg0 m 𝒱₀ L lv rests), .host (Gen.seg1 m 𝒱₀ L lv rests), .host (Gen.seg2 m 𝒱₀ L lv rests),
   .host (Gen.seg3 m 𝒱₀ L lv rests), .host (Gen.seg4 m 𝒱₀ L lv rests), .region (trunkSeg m),
   .host (Gen.seg6 m (early m) 𝒱₀ L lv rests), .region (headSeg m), .host (Gen.seg8 m (named m) 𝒱₀ L lv rests)]

/-- The result array after the run: the second region's result reshaped to its three axes. -/
def result (c : Dev nD) : Buf (Elt Ideal) ((c : Thread nD τ).loc main_v20) := Gen.V9 m (named m) c main_v20

set_option backward.isDefEq.respectTransparency.types false in
/-- Every weakly fair execution of the idealized kernel from a memory with zero counters ends, faults nowhere, leaves the
    result array at `result` and each argument array as launched. -/
theorem run : θ_run defs (onTc (τ := τ) (main (F := Ideal))) ⟨m, fun _ => 0, ρ⟩ (fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) Gen.adm (pdats m) () cellOf_inj emb₁ defs₀ 𝒱₀ L lv m ρ main (items m)
    (fun c Q => by
      rw [main_chain c, Pipeline.Seg.run_eq_chain]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V9 m (named m) c) ∗ ∃ r, prngReg c r))
    (hch := ⟨fun _ => .rfl, fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (Gen.V9 m (named m) c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V9 m (named m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V9 m (named m) c) s')
      isplitl [Hh] <;> iassumption)
    (hQ := fun s h c =>
      ⟨h c _ (mem_uc main_v20 (by decide)),
        (h c _ (mem_uc main_arg0 (by decide))).trans (Gen.V9_main_arg0 m (named m) c),
        (h c _ (mem_uc main_arg1 (by decide))).trans (Gen.V9_main_arg1 m (named m) c),
        (h c _ (mem_uc main_arg2 (by decide))).trans (Gen.V9_main_arg2 m (named m) c),
        (h c _ (mem_uc main_arg3 (by decide))).trans (Gen.V9_main_arg3 m (named m) c),
        (h c _ (mem_uc main_arg4 (by decide))).trans (Gen.V9_main_arg4 m (named m) c),
        (h c _ (mem_uc main_arg5 (by decide))).trans (Gen.V9_main_arg5 m (named m) c),
        (h c _ (mem_uc main_arg6 (by decide))).trans (Gen.V9_main_arg6 m (named m) c),
        (h c _ (mem_uc main_arg7 (by decide))).trans (Gen.V9_main_arg7 m (named m) c),
        (h c _ (mem_uc main_arg8 (by decide))).trans (Gen.V9_main_arg8 m (named m) c),
        (h c _ (mem_uc main_arg9 (by decide))).trans (Gen.V9_main_arg9 m (named m) c),
        (h c _ (mem_uc main_arg10 (by decide))).trans (Gen.V9_main_arg10 m (named m) c)⟩)

end Cert.KernelIdeal.Exact

end
-- ==== Proof.Layers.lean ====
/-
  The three dense layers, entry by entry, on both sides.

  Kernel: the first region's payload is layer3 ∘ layer2 ∘ layer1 of its row block, each layer
      (p, q) ↦ max( Σ_k L(p, k) · W(k, q) + b(0, q), 0 ),
  the first one contracting over 128 positions of which the last twelve hold the pad word on both factors.
  Reference: the same three layers over whole arrays, the first contracting over 116 positions.
  The pad word is the integer 0 converted, i.e. 0, so the twelve extra terms are 0 · 0.
-/
import proofs.«157737_j67053029425158_2_alg».proof.Proof.Products
import proofs.«157737_j67053029425158_2_alg».proof.Proof.Gen.ReferenceIdeal.Read
import Idealize.ShloMosaic.Lib.KernelVsHost
import Idealize.ShloMosaic.Lib.ValueLayout
import Idealize.ShloMosaic.PureOps.Ideal
import Idealize.ShloMosaic.PureOps.Ideal.Laws

noncomputable section

namespace Cert.KernelIdeal.Layers

open Cert.KernelIdeal Cert.KernelIdeal.Gen Cert.KernelIdeal.Products
open Idealize.ShloMosaic Idealize.ShloMosaic.TcCoe Idealize.ShloMosaic.ValueIdx
open Cert.ReferenceIdeal.Read (val_main_v7 val_main_v8 val_main_v9 val_main_v10 val_main_v11 val_main_v12 val_main_v13 val_main_v14 val_main_v15
  val_main_v16 val_main_v17 val_main_v18 val_main_v19 val_main_v20 val_main_v21 val_main_v22 val_main_call0_v0 val_main_call0_cst
  val_main_call1_v0 val_main_call1_cst val_main_call2_v0 val_main_call2_cst)

/-- The zero against which each layer takes its positive part. -/
abbrev floor : EReal := Ideal.ofBits .f32 0x00000000#32

/-! ## The kernel's payload as three layers -/

def dense1 (x : Vec Ideal S512x128 .bf16) (w : Vec Ideal S128x256 .bf16) (b : Vec Ideal S1x256 .f32) : FVec Ideal S512x256 .bf16 :=
  truncf .bf16 (maximumf (addf (matmul dot_S512x128_S128x256_S512x256_1_0_0_1_n_n none (shapeCast S512x128 x shapeCasts_S512x128_S512x128 : FVec Ideal S512x128 .bf16)
      (shapeCast S128x256 w shapeCasts_S128x256_S128x256 : FVec Ideal S128x256 .bf16) (constant S512x256 .f32 0x00000000#32))
    (broadcastTo S512x256 (shapeCast S1x256 b shapeCasts_S1x256_S1x256 : FVec Ideal S1x256 .f32) broadcasts_S1x256_S512x256))
    (broadcast S512x256 (Scalar.ofBits .f32 0x00000000#32))) bitsLt_bf16_f32

def dense2 (h : FVec Ideal S512x256 .bf16) (w : Vec Ideal S256x512 .bf16) (b : Vec Ideal S1x512 .f32) : FVec Ideal S512x512 .bf16 :=
  truncf .bf16 (maximumf (addf (matmul dot_S512x256_S256x512_S512x512_1_0_0_1_n_n none h
      (shapeCast S256x512 w shapeCasts_S256x512_S256x512 : FVec Ideal S256x512 .bf16) (constant S512x512 .f32 0x00000000#32))
    (broadcastTo S512x512 (shapeCast S1x512 b shapeCasts_S1x512_S1x512 : FVec Ideal S1x512 .f32) broadcasts_S1x512_S512x512))
    (broadcast S512x512 (Scalar.ofBits .f32 0x00000000#32))) bitsLt_bf16_f32

def dense3 (h : FVec Ideal S512x512 .bf16) (w : Vec Ideal S512x1024 .bf16) (b : Vec Ideal S1x1024 .f32) : FVec Ideal S512x1024 .bf16 :=
  truncf .bf16 (maximumf (addf (matmul dot_S512x512_S512x1024_S512x1024_1_0_0_1_n_n none h
      (shapeCast S512x1024 w shapeCasts_S512x1024_S512x1024 : FVec Ideal S512x1024 .bf16) (constant S512x1024 .f32 0x00000000#32))
    (broadcastTo S512x1024 (shapeCast S1x1024 b shapeCasts_S1x1024_S1x1024 : FVec Ideal S1x1024 .f32) broadcasts_S1x1024_S512x1024))
    (broadcast S512x1024 (Scalar.ofBits .f32 0x00000000#32))) bitsLt_bf16_f32

theorem payload_layers (x : Vec Ideal S512x128 .bf16) (w1 : Vec Ideal S128x256 .bf16) (b1 : Vec Ideal S1x256 .f32)
    (w2 : Vec Ideal S256x512 .bf16) (b2 : Vec Ideal S1x512 .f32) (w3 : Vec Ideal S512x1024 .bf16) (b3 : Vec Ideal S1x1024 .f32) :
    k0_pay1 x w1 b1 w2 b2 w3 b3 = dense3 (dense2 (dense1 x w1 b1) w2 b2) w3 b3 := rfl

theorem dense1_entry (x : Vec Ideal S512x128 .bf16) (w : Vec Ideal S128x256 .bf16) (b : Vec Ideal S1x256 .f32) (p : Fin 512) (q : Fin 256) :
    dense1 x w b (ix2 p q) = max ((∑ k : Fin 128, x (ix2 p k) * w (ix2 k q)) + b (ix2 (0 : Fin 1) q)) floor := by
  unfold dense1
  simp only [truncf_apply, maximumf_apply, addf_apply, broadcast_apply]
  rw [product_first, broadcastTo_1b_ab_apply]
  simp only [shapeCast_self]
  rfl

theorem dense2_entry (h : FVec Ideal S512x256 .bf16) (w : Vec Ideal S256x512 .bf16) (b : Vec Ideal S1x512 .f32) (p : Fin 512) (q : Fin 512) :
    dense2 h w b (ix2 p q) = max ((∑ k : Fin 256, h (ix2 p k) * w (ix2 k q)) + b (ix2 (0 : Fin 1) q)) floor := by
  unfold dense2
  simp only [truncf_apply, maximumf_apply, addf_apply, broadcast_apply]
  rw [product_second, broadcastTo_1b_ab_apply]
  simp only [shapeCast_self]
  rfl

theorem dense3_entry (h : FVec Ideal S512x512 .bf16) (w : Vec Ideal S512x1024 .bf16) (b : Vec Ideal S1x1024 .f32) (p : Fin 512) (q : Fin 1024) :
    dense3 h w b (ix2 p q) = max ((∑ k : Fin 512, h (ix2 p k) * w (ix2 k q)) + b (ix2 (0 : Fin 1) q)) floor := by
  unfold dense3
  simp only [truncf_apply, maximumf_apply, addf_apply, broadcast_apply]
  rw [product_third, broadcastTo_1b_ab_apply]
  simp only [shapeCast_self]
  rfl

/-! ## The reference's three layers -/

section Reference
variable (a0 : Cert.ReferenceIdeal.S1024x100.Idx → EReal) (a1 : Cert.ReferenceIdeal.S1024.Idx → BitVec 32) (a2 : Cert.ReferenceIdeal.S8x16.Idx → EReal)
  (a3 : Cert.ReferenceIdeal.S116x256.Idx → EReal) (a4 : Cert.ReferenceIdeal.S256.Idx → EReal) (a5 : Cert.ReferenceIdeal.S256x512.Idx → EReal) (a6 : Cert.ReferenceIdeal.S512.Idx → EReal)
  (a7 : Cert.ReferenceIdeal.S512x1024.Idx → EReal) (a8 : Cert.ReferenceIdeal.S1024.Idx → EReal)

theorem ref1 (p : Fin 1024) (q : Fin 256) :
    val_main_v12 (F := Ideal) a0 a1 a2 a3 a4 (ix2 p q)
      = max ((∑ k : Fin 116, val_main_v7 (F := Ideal) a0 a1 a2 (ix2 p k) * a3 (ix2 k q)) + a4 (ix1 q)) floor := by
  rw [Cert.ReferenceIdeal.Read.val_main_v12_apply, Cert.ReferenceIdeal.Read.val_main_v11_apply, Cert.ReferenceIdeal.Read.val_main_v8_apply, Cert.ReferenceIdeal.Read.val_main_v10_apply,
    Cert.ReferenceIdeal.Read.val_main_v9_apply, Cert.ReferenceIdeal.Read.val_main_call0_v0_apply, Cert.ReferenceIdeal.Read.val_main_call0_cst_apply]
  have e1 : ∀ k, Cert.ReferenceIdeal.Read.lidx_main_v8 (ix2 p q) k = ix2 p k := fun k => funext fun a => Fin.ext (by match a with | ⟨0, _⟩ => rfl | ⟨1, _⟩ => rfl)
  have e2 : ∀ k, Cert.ReferenceIdeal.Read.ridx_main_v8 (ix2 p q) k = ix2 k q := fun k => funext fun a => Fin.ext (by match a with | ⟨0, _⟩ => rfl | ⟨1, _⟩ => rfl)
  have e3 : Cert.ReferenceIdeal.Read.idx_main_v9 (Cert.ReferenceIdeal.Read.idx_main_v10 (ix2 p q)) = ix1 q := funext fun a => Fin.ext (by match a with | ⟨0, _⟩ => rfl)
  simp only [e1, e2, e3]
  rfl

theorem ref2 (p : Fin 1024) (q : Fin 512) :
    val_main_v17 (F := Ideal) a0 a1 a2 a3 a4 a5 a6 (ix2 p q)
      = max ((∑ k : Fin 256, val_main_v12 (F := Ideal) a0 a1 a2 a3 a4 (ix2 p k) * a5 (ix2 k q)) + a6 (ix1 q)) floor := by
  rw [Cert.ReferenceIdeal.Read.val_main_v17_apply, Cert.ReferenceIdeal.Read.val_main_v16_apply, Cert.ReferenceIdeal.Read.val_main_v13_apply, Cert.ReferenceIdeal.Read.val_main_v15_apply,
    Cert.ReferenceIdeal.Read.val_main_v14_apply, Cert.ReferenceIdeal.Read.val_main_call1_v0_apply, Cert.ReferenceIdeal.Read.val_main_call1_cst_apply]
  have e1 : ∀ k, Cert.ReferenceIdeal.Read.lidx_main_v13 (ix2 p q) k = ix2 p k := fun k => funext fun a => Fin.ext (by match a with | ⟨0, _⟩ => rfl | ⟨1, _⟩ => rfl)
  have e2 : ∀ k, Cert.ReferenceIdeal.Read.ridx_main_v13 (ix2 p q) k = ix2 k q := fun k => funext fun a => Fin.ext (by match a with | ⟨0, _⟩ => rfl | ⟨1, _⟩ => rfl)
  have e3 : Cert.ReferenceIdeal.Read.idx_main_v14 (Cert.ReferenceIdeal.Read.idx_main_v15 (ix2 p q)) = ix1 q := funext fun a => Fin.ext (by match a with | ⟨0, _⟩ => rfl)
  simp only [e1, e2, e3]
  rfl

theorem ref3 (p : Fin 1024) (q : Fin 1024) :
    val_main_v22 (F := Ideal) a0 a1 a2 a3 a4 a5 a6 a7 a8 (ix2 p q)
      = max ((∑ k : Fin 512, val_main_v17 (F := Ideal) a0 a1 a2 a3 a4 a5 a6 (ix2 p k) * a7 (ix2 k q)) + a8 (ix1 q)) floor := by
  rw [Cert.ReferenceIdeal.Read.val_main_v22_apply, Cert.ReferenceIdeal.Read.val_main_v21_apply, Cert.ReferenceIdeal.Read.val_main_v18_apply, Cert.ReferenceIdeal.Read.val_main_v20_apply,
    Cert.ReferenceIdeal.Read.val_main_v19_apply, Cert.ReferenceIdeal.Read.val_main_call2_v0_apply, Cert.ReferenceIdeal.Read.val_main_call2_cst_apply]
  have e1 : ∀ k, Cert.ReferenceIdeal.Read.lidx_main_v18 (ix2 p q) k = ix2 p k := fun k => funext fun a => Fin.ext (by match a with | ⟨0, _⟩ => rfl | ⟨1, _⟩ => rfl)
  have e2 : ∀ k, Cert.ReferenceIdeal.Read.ridx_main_v18 (ix2 p q) k = ix2 k q := fun k => funext fun a => Fin.ext (by match a with | ⟨0, _⟩ => rfl | ⟨1, _⟩ => rfl)
  have e3 : Cert.ReferenceIdeal.Read.idx_main_v19 (Cert.ReferenceIdeal.Read.idx_main_v20 (ix2 p q)) = ix1 q := funext fun a => Fin.ext (by match a with | ⟨0, _⟩ => rfl)
  simp only [e1, e2, e3]
  rfl

end Reference

/-! ## The padded contraction -/

/-- The pad word: the integer 0 converted to a float, which is 0. -/
abbrev padWord : S_.Idx → EReal := sitofp (F := Ideal) .f32 (constantI S_ 32 0#32)

theorem padWord_zero (i : S_.Idx) : padWord i = 0 := by
  show (((0#32 : BitVec 32).toInt : ℝ) : EReal) = 0
  simp

/-- The input rows padded with twelve columns. -/
abbrev paddedRows (x : S1024x116.Idx → EReal) : S1024x128.Idx → EReal :=
  pad S1024x128 ![0, 0] ![0, 12] ![0, 0] x padWord pads_S1024x116_S1024x128_000_0120 h_S_
/-- The first weight matrix padded with twelve rows. -/
abbrev paddedWeights (w : S116x256.Idx → EReal) : S128x256.Idx → EReal :=
  pad S128x256 ![0, 0] ![12, 0] ![0, 0] w padWord pads_S116x256_S128x256_0120_000 h_S_

theorem paddedRows_in (x : S1024x116.Idx → EReal) (p : Fin 1024) (k : Fin 116) : paddedRows x (ix2 p (Fin.castAdd 12 k)) = x (ix2 p k) :=
  pad_apply_of_inside _ _ _ x padWord _ _ _ (ix2 p k) fun a => by
    match a with
    | ⟨0, _⟩ => show p.val = 0 + p.val * (0 + 1); omega
    | ⟨1, _⟩ => show k.val = 0 + k.val * (0 + 1); omega

theorem paddedRows_out (x : S1024x116.Idx → EReal) (p : Fin 1024) (k : Fin 12) : paddedRows x (ix2 p (Fin.natAdd 116 k)) = 0 := by
  rw [paddedRows, pad_apply_of_not_inside _ _ _ x padWord _ _ (ix2 p (Fin.natAdd 116 k)) 1 (by
    show ¬(0 ≤ 116 + k.val ∧ (116 + k.val - 0) % (0 + 1) = 0 ∧ (116 + k.val - 0) / (0 + 1) < 116)
    omega)]
  exact padWord_zero _

theorem paddedWeights_in (w : S116x256.Idx → EReal) (k : Fin 116) (q : Fin 256) : paddedWeights w (ix2 (Fin.castAdd 12 k) q) = w (ix2 k q) :=
  pad_apply_of_inside _ _ _ w padWord _ _ _ (ix2 k q) fun a => by
    match a with
    | ⟨0, _⟩ => show k.val = 0 + k.val * (0 + 1); omega
    | ⟨1, _⟩ => show q.val = 0 + q.val * (0 + 1); omega

theorem paddedWeights_out (w : S116x256.Idx → EReal) (k : Fin 12) (q : Fin 256) : paddedWeights w (ix2 (Fin.natAdd 116 k) q) = 0 := by
  rw [paddedWeights, pad_apply_of_not_inside _ _ _ w padWord _ _ (ix2 (Fin.natAdd 116 k) q) 0 (by
    show ¬(0 ≤ 116 + k.val ∧ (116 + k.val - 0) % (0 + 1) = 0 ∧ (116 + k.val - 0) / (0 + 1) < 116)
    omega)]
  exact padWord_zero _

/-- The contraction over the 128 padded positions is the contraction over the 116 positions of the operands. -/
theorem padded_sum (x : S1024x116.Idx → EReal) (w : S116x256.Idx → EReal) (p : Fin 1024) (q : Fin 256) :
    (∑ k : Fin 128, paddedRows x (ix2 p k) * paddedWeights w (ix2 k q)) = ∑ k : Fin 116, x (ix2 p k) * w (ix2 k q) := by
  rw [show (∑ k : Fin 128, paddedRows x (ix2 p k) * paddedWeights w (ix2 k q))
      = ∑ k : Fin (116 + 12), paddedRows x (ix2 p k) * paddedWeights w (ix2 k q) from rfl, Fin.sum_univ_add]
  simp only [paddedRows_in, paddedWeights_in, paddedRows_out, paddedWeights_out, mul_zero, Finset.sum_const_zero, add_zero]

end Cert.KernelIdeal.Layers

end
-- ==== Proof.TrunkValue.lean ====
/-
  What the first region writes. At the row block of point t the payload's three layers are, entry by entry, the
  reference's three layers at rows 512·t … 512·t + 511: the input block is those rows of the padded joined rows, the
  weight and bias windows are the whole (padded, cast, reshaped) arrays, and the padded contraction is the unpadded one.
  The two row blocks cover the hidden array, so after the region it holds the reference's third hidden layer.
-/
import proofs.«157737_j67053029425158_2_alg».proof.Proof.ExactRun
import proofs.«157737_j67053029425158_2_alg».proof.Proof.Layers
import Idealize.ShloMosaic.Lib.StableHlo.Run
import Idealize.ShloMosaic.Lib.Pipeline.Value

noncomputable section

namespace Cert.KernelIdeal.TrunkValue

open Cert.KernelIdeal Cert.KernelIdeal.Gen Cert.KernelIdeal.Frames Cert.KernelIdeal.Layers
open Idealize.ShloMosaic Idealize.ShloMosaic.TcCoe Idealize.ShloMosaic.ValueIdx Idealize.ShloMosaic.StableHlo Idealize.SL.Sem
open Idealize.ShloMosaic.Pipeline (Dat)
open Cert.ReferenceIdeal.Read (val_main_v7 val_main_v12 val_main_v17 val_main_v22)

variable (m : (ℓ : Loc nD τ sig) → Buf (Elt Ideal) ℓ)

/-- The joined input rows [noise | embedding row] as the reference computes them from the arguments. -/
abbrev rows (c : Dev nD) : Cert.ReferenceIdeal.S1024x116.Idx → EReal := val_main_v7 (F := Ideal) (m ((c : Thread nD τ).loc main_arg0)) (m ((c : Thread nD τ).loc main_arg1)) (m ((c : Thread nD τ).loc main_arg2))

/-! ## What the region finds in its operands -/

theorem found_rows (c : Dev nD) : (Gen.V5 m c main_v9 : S1024x128.Idx → EReal) = paddedRows (rows m c) := by
  dsimp only [Gen.V5, Gen.V4, Gen.V3, Gen.V2, Gen.V1, Gen.V0, hostOps0_4, hostOps0_3, hostOps0_2, hostOps0_1, hostOps0]
  after_results
  rfl
theorem found_w1 (c : Dev nD) : (Gen.V5 m c main_v11 : S128x256.Idx → EReal) = paddedWeights (m ((c : Thread nD τ).loc main_arg3)) := by
  dsimp only [Gen.V5, Gen.V4, Gen.V3, Gen.V2, Gen.V1, Gen.V0, hostOps0_4, hostOps0_3, hostOps0_2, hostOps0_1, hostOps0]
  after_results
  rfl
theorem found_b1 (c : Dev nD) : (Gen.V5 m c main_v12 : S1x256.Idx → EReal) = shapeCast S1x256 (m ((c : Thread nD τ).loc main_arg4)) shapeCasts_S256_S1x256 := by
  dsimp only [Gen.V5, Gen.V4, Gen.V3, Gen.V2, Gen.V1, Gen.V0, hostOps0_4]
  after_results
  rfl
theorem found_w2 (c : Dev nD) : (Gen.V5 m c main_v13 : S256x512.Idx → EReal) = (m ((c : Thread nD τ).loc main_arg5)) := by
  dsimp only [Gen.V5, Gen.V4, Gen.V3, Gen.V2, Gen.V1, Gen.V0, hostOps0_4]
  after_results
  rfl
theorem found_b2 (c : Dev nD) : (Gen.V5 m c main_v14 : S1x512.Idx → EReal) = shapeCast S1x512 (m ((c : Thread nD τ).loc main_arg6)) shapeCasts_S512_S1x512 := by
  dsimp only [Gen.V5, Gen.V4, Gen.V3, Gen.V2, Gen.V1, Gen.V0, hostOps0_4]
  after_results
  rfl
theorem found_w3 (c : Dev nD) : (Gen.V5 m c main_v15 : S512x1024.Idx → EReal) = (m ((c : Thread nD τ).loc main_arg7)) := by
  dsimp only [Gen.V5, Gen.V4, Gen.V3, Gen.V2, Gen.V1, Gen.V0, hostOps0_4]
  after_results
  rfl
theorem found_b3 (c : Dev nD) : (Gen.V5 m c main_v16 : S1x1024.Idx → EReal) = shapeCast S1x1024 (m ((c : Thread nD τ).loc main_arg8)) shapeCasts_S1024_S1x1024 := by
  dsimp only [Gen.V5, Gen.V4, Gen.V3, Gen.V2, Gen.V1, Gen.V0, hostOps0_4]
  after_results
  rfl

/-! ## The blocks, read off the arrays -/

/-- The printed index maps over the two points: the input rows' and the result rows' block index is the point on the row axis;
    every other window stays at block 0. -/
theorem trunk_index : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The array's row under row r of the block of point t. -/
def rowOf (t : Fin cfg0.N) (r : Fin 512) : Fin 1024 := ⟨t.val * 512 + r.val, by
  have h : t.val < 2 := lt_of_lt_of_eq t.isLt N_0
  have := r.isLt; omega⟩

theorem rows_block (c : Dev nD) (t : Fin cfg0.N) (r : Fin 512) (k : Fin 128) :
    Trunk.blockAt (atTrunk m) c 0 t (ix2 r k) = (Gen.V5 m c main_v9 : S1024x128.Idx → EReal) (ix2 (rowOf t r) k) := by
  show (Gen.V5 m c main_v9 : S1024x128.Idx → EReal) (((cfg0.win 0).blk t).view.emb (ix2 r k)) = _
  refine congrArg _ (funext fun a => Fin.ext ?_)
  have e := (trunk_index t).1
  match a with
  | ⟨0, _⟩ => show win0_0.index t (0 : Fin 2) * 512 + 1 * r.val = t.val * 512 + r.val; rw [e.1]; omega
  | ⟨1, _⟩ => show win0_0.index t (1 : Fin 2) * 128 + 1 * k.val = k.val; rw [e.2]; omega

theorem whole_1 (c : Dev nD) (t : Fin cfg0.N) :
    Trunk.blockAt (atTrunk m) c 1 t = (Gen.V5 m c main_v11 : S128x256.Idx → EReal) := by
  funext y
  show (Gen.V5 m c main_v11 : S128x256.Idx → EReal) (((cfg0.win 1).blk t).view.emb y) = (Gen.V5 m c main_v11 : S128x256.Idx → EReal) y
  refine congrArg _ (funext fun a => Fin.ext ?_)
  have e := trunk_index t
  match a with
  | ⟨0, _⟩ => show win0_1.index t (0 : Fin 2) * 128 + 1 * (y 0).val = (y 0).val; rw [(e.2.1).1]; omega
  | ⟨1, _⟩ => show win0_1.index t (1 : Fin 2) * 256 + 1 * (y 1).val = (y 1).val; rw [(e.2.1).2]; omega
theorem whole_2 (c : Dev nD) (t : Fin cfg0.N) :
    Trunk.blockAt (atTrunk m) c 2 t = (Gen.V5 m c main_v12 : S1x256.Idx → EReal) := by
  funext y
  show (Gen.V5 m c main_v12 : S1x256.Idx → EReal) (((cfg0.win 2).blk t).view.emb y) = (Gen.V5 m c main_v12 : S1x256.Idx → EReal) y
  refine congrArg _ (funext fun a => Fin.ext ?_)
  have e := trunk_index t
  match a with
  | ⟨0, _⟩ => show win0_2.index t (0 : Fin 2) * 1 + 1 * (y 0).val = (y 0).val; rw [(e.2.2.1).1]; omega
  | ⟨1, _⟩ => show win0_2.index t (1 : Fin 2) * 256 + 1 * (y 1).val = (y 1).val; rw [(e.2.2.1).2]; omega
theorem whole_3 (c : Dev nD) (t : Fin cfg0.N) :
    Trunk.blockAt (atTrunk m) c 3 t = (Gen.V5 m c main_v13 : S256x512.Idx → EReal) := by
  funext y
  show (Gen.V5 m c main_v13 : S256x512.Idx → EReal) (((cfg0.win 3).blk t).view.emb y) = (Gen.V5 m c main_v13 : S256x512.Idx → EReal) y
  refine congrArg _ (funext fun a => Fin.ext ?_)
  have e := trunk_index t
  match a with
  | ⟨0, _⟩ => show win0_3.index t (0 : Fin 2) * 256 + 1 * (y 0).val = (y 0).val; rw [(e.2.2.2.1).1]; omega
  | ⟨1, _⟩ => show win0_3.index t (1 : Fin 2) * 512 + 1 * (y 1).val = (y 1).val; rw [(e.2.2.2.1).2]; omega
theorem whole_4 (c : Dev nD) (t : Fin cfg0.N) :
    Trunk.blockAt (atTrunk m) c 4 t = (Gen.V5 m c main_v14 : S1x512.Idx → EReal) := by
  funext y
  show (Gen.V5 m c main_v14 : S1x512.Idx → EReal) (((cfg0.win 4).blk t).view.emb y) = (Gen.V5 m c main_v14 : S1x512.Idx → EReal) y
  refine congrArg _ (funext fun a => Fin.ext ?_)
  have e := trunk_index t
  match a with
  | ⟨0, _⟩ => show win0_4.index t (0 : Fin 2) * 1 + 1 * (y 0).val = (y 0).val; rw [(e.2.2.2.2.1).1]; omega
  | ⟨1, _⟩ => show win0_4.index t (1 : Fin 2) * 512 + 1 * (y 1).val = (y 1).val; rw [(e.2.2.2.2.1).2]; omega
theorem whole_5 (c : Dev nD) (t : Fin cfg0.N) :
    Trunk.blockAt (atTrunk m) c 5 t = (Gen.V5 m c main_v15 : S512x1024.Idx → EReal) := by
  funext y
  show (Gen.V5 m c main_v15 : S512x1024.Idx → EReal) (((cfg0.win 5).blk t).view.emb y) = (Gen.V5 m c main_v15 : S512x1024.Idx → EReal) y
  refine congrArg _ (funext fun a => Fin.ext ?_)
  have e := trunk_index t
  match a with
  | ⟨0, _⟩ => show win0_5.index t (0 : Fin 2) * 512 + 1 * (y 0).val = (y 0).val; rw [(e.2.2.2.2.2.1).1]; omega
  | ⟨1, _⟩ => show win0_5.index t (1 : Fin 2) * 1024 + 1 * (y 1).val = (y 1).val; rw [(e.2.2.2.2.2.1).2]; omega
theorem whole_6 (c : Dev nD) (t : Fin cfg0.N) :
    Trunk.blockAt (atTrunk m) c 6 t = (Gen.V5 m c main_v16 : S1x1024.Idx → EReal) := by
  funext y
  show (Gen.V5 m c main_v16 : S1x1024.Idx → EReal) (((cfg0.win 6).blk t).view.emb y) = (Gen.V5 m c main_v16 : S1x1024.Idx → EReal) y
  refine congrArg _ (funext fun a => Fin.ext ?_)
  have e := trunk_index t
  match a with
  | ⟨0, _⟩ => show win0_6.index t (0 : Fin 2) * 1 + 1 * (y 0).val = (y 0).val; rw [(e.2.2.2.2.2.2.1).1]; omega
  | ⟨1, _⟩ => show win0_6.index t (1 : Fin 2) * 1024 + 1 * (y 1).val = (y 1).val; rw [(e.2.2.2.2.2.2.1).2]; omega

/-! ## A block's entries are the reference's layers at the block's rows -/

theorem first_layer (c : Dev nD) (t : Fin cfg0.N) (r : Fin 512) (q : Fin 256) :
    dense1 (Trunk.blockAt (atTrunk m) c 0 t) (Trunk.blockAt (atTrunk m) c 1 t) (Trunk.blockAt (atTrunk m) c 2 t) (ix2 r q)
      = val_main_v12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t r) q) := by
  rw [dense1_entry, ref1, whole_1, whole_2, found_w1, found_b1]
  have hrows : ∀ k : Fin 128, Trunk.blockAt (atTrunk m) c 0 t (ix2 r k) = paddedRows (rows m c) (ix2 (rowOf t r) k) := fun k => by
    rw [rows_block, found_rows]
  simp only [hrows]
  rw [padded_sum, shapeCast_a_1a_apply]

theorem second_layer (c : Dev nD) (t : Fin cfg0.N) (r : Fin 512) (q : Fin 512) :
    dense2 (dense1 (Trunk.blockAt (atTrunk m) c 0 t) (Trunk.blockAt (atTrunk m) c 1 t) (Trunk.blockAt (atTrunk m) c 2 t))
        (Trunk.blockAt (atTrunk m) c 3 t) (Trunk.blockAt (atTrunk m) c 4 t) (ix2 r q)
      = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (rowOf t r) q) := by
  rw [dense2_entry, ref2, whole_3, whole_4, found_w2, found_b2]
  simp only [first_layer m c t r]
  rw [shapeCast_a_1a_apply]

theorem third_layer (c : Dev nD) (t : Fin cfg0.N) (r : Fin 512) (q : Fin 1024) :
    Trunk.layer3 (atTrunk m) c t (ix2 r q) = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (rowOf t r) q) := by
  unfold Trunk.layer3
  rw [payload_layers, dense3_entry, ref3, whole_5, whole_6, found_w3, found_b3]
  simp only [second_layer m c t r]
  rw [shapeCast_a_1a_apply]

/-! ## The hidden array after the region -/

/-- An index of the hidden array lies in the block of point t exactly when its row is among the block's 512 rows. -/
theorem mem_rows (t : Fin cfg0.N) (i : S1024x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v17).slice (win0_7.rect t)).set ↔ _
  rw [View.set_slice_whole, Rect.mem_set_unit]
  exact Iff.rfl

/-- After the first region the hidden array holds the reference's third hidden layer. -/
theorem hidden_eq (c : Dev nD) :
    hiddenLeft m c = (val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S1024x1024.Idx → EReal) := by
  unfold hiddenLeft
  refine (Trunk.dat (atTrunk m) c).arrAt_eq_of_cover 7 _ (fun t _ => ?_) (fun i => ?_)
  · show (cfg0.win 7).cut (grid0.coords t) ((Trunk.dat (atTrunk m) c).after 7 t) = _
    rw [Trunk.left_7]
    funext y
    revert y
    show ∀ y : S512x1024.Idx, Trunk.layer3 (atTrunk m) c t y
      = (val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S1024x1024.Idx → EReal) (((cfg0.win 7).blk t).view.emb y)
    intro y
    obtain ⟨p, q, rfl⟩ : ∃ (p : Fin 512) (q : Fin 1024), y = ix2 p q := ⟨y 0, y 1, eq_ix2 y⟩
    rw [third_layer]
    refine congrArg _ (funext fun a => Fin.ext ?_)
    have e := (trunk_index t).2.2.2.2.2.2.2
    match a with
    | ⟨0, _⟩ => show t.val * 512 + p.val = win0_7.index t (0 : Fin 2) * 512 + 1 * p.val; rw [e.1]; omega
    | ⟨1, _⟩ => show q.val = win0_7.index t (1 : Fin 2) * 1024 + 1 * q.val; rw [e.2]; omega
  · have h0 : (i 0).val < 1024 := (i 0).isLt
    have h1 : (i 1).val < 1024 := (i 1).isLt
    refine ⟨⟨(i 0).val / 512, by rw [show cfg0.N = 2 from N_0]; omega⟩, flush0_7 _, ?_⟩
    rw [mem_rows]
    have e := (trunk_index ⟨(i 0).val / 512, by rw [show cfg0.N = 2 from N_0]; omega⟩).2.2.2.2.2.2.2
    intro a
    match a with
    | ⟨0, _⟩ =>
      show win0_7.index _ (0 : Fin 2) * 512 ≤ (i 0).val ∧ (i 0).val < win0_7.index _ (0 : Fin 2) * 512 + 512
      rw [e.1]; show (i 0).val / 512 * 512 ≤ (i 0).val ∧ (i 0).val < (i 0).val / 512 * 512 + 512; omega
    | ⟨1, _⟩ =>
      show win0_7.index _ (1 : Fin 2) * 1024 ≤ (i 1).val ∧ (i 1).val < win0_7.index _ (1 : Fin 2) * 1024 + 1024
      rw [e.2]; omega

end Cert.KernelIdeal.TrunkValue

end
-- ==== Proof.HeadValue.lean ====
/-
  What the second region writes. Point t works on columns 1280·t … of the result; an entry it writes back at row p and
  column n = 1280·t + q is logistic( Σ_k hidden(p, k) · W(k, n) + b(n) ): the hidden layer's window is the whole array the
  first region left, and at an entry the transfers move the weight and bias buffers hold the arrays' own entries.
  The reference's head is 1 / (1 + e^(−(Σ_k h(p, k) · W(k, n) + b(n)))) with both ones the word 0x3F800000, which is 1:
  the logistic by definition. The 52 blocks, the last cut at column 66049, cover the result array.
-/
import proofs.«157737_j67053029425158_2_alg».proof.Proof.TrunkValue
import proofs.«157737_j67053029425158_2_alg».proof.Proof.HeadExact

noncomputable section

namespace Cert.KernelIdeal.HeadValue

open Cert.KernelIdeal Cert.KernelIdeal.Gen Cert.KernelIdeal.Frames Cert.KernelIdeal.Layers Cert.KernelIdeal.Head Cert.KernelIdeal.HeadExact
  Cert.KernelIdeal.Exact Cert.KernelIdeal.TrunkValue
open Idealize.ShloMosaic Idealize.ShloMosaic.TcCoe Idealize.ShloMosaic.ValueIdx Idealize.ShloMosaic.StableHlo Idealize.SL.Sem
open Idealize.ShloMosaic.Pipeline (Dat Window)
open Cert.ReferenceIdeal.Read (val_main_v22 val_main_v23 val_main_v24 val_main_v25 val_main_v26 val_main_v27 val_main_v28 val_main_v29 val_main_v30
  val_main_v31 val_main_v32 val_main_cst val_main_cst_1)

/-! ## The reference's head -/

theorem one_word : Ideal.ofBits .f32 0x3F800000#32 = 1 := by
  simp [Ideal.ofBits, Ideal.ieee, -EReal.coe_mul]; norm_num

section Reference
variable (a0 : Cert.ReferenceIdeal.S1024x100.Idx → EReal) (a1 : Cert.ReferenceIdeal.S1024.Idx → BitVec 32) (a2 : Cert.ReferenceIdeal.S8x16.Idx → EReal)
  (a3 : Cert.ReferenceIdeal.S116x256.Idx → EReal) (a4 : Cert.ReferenceIdeal.S256.Idx → EReal) (a5 : Cert.ReferenceIdeal.S256x512.Idx → EReal) (a6 : Cert.ReferenceIdeal.S512.Idx → EReal)
  (a7 : Cert.ReferenceIdeal.S512x1024.Idx → EReal) (a8 : Cert.ReferenceIdeal.S1024.Idx → EReal) (a9 : Cert.ReferenceIdeal.S1024x66049.Idx → EReal) (a10 : Cert.ReferenceIdeal.S66049.Idx → EReal)

theorem ref_head (p : Fin 1024) (n : Fin 66049) :
    val_main_v32 (F := Ideal) a0 a1 a2 a3 a4 a5 a6 a7 a8 a9 a10 (ix2 p n)
      = Ideal.logistic ((∑ k : Fin 1024, val_main_v22 (F := Ideal) a0 a1 a2 a3 a4 a5 a6 a7 a8 (ix2 p k) * a9 (ix2 k n)) + a10 (ix1 n)) := by
  rw [Cert.ReferenceIdeal.Read.val_main_v32_apply, Cert.ReferenceIdeal.Read.val_main_v31_apply, Cert.ReferenceIdeal.Read.val_main_cst_1_apply, Cert.ReferenceIdeal.Read.val_main_v30_apply,
    Cert.ReferenceIdeal.Read.val_main_v29_apply, Cert.ReferenceIdeal.Read.val_main_cst_apply, Cert.ReferenceIdeal.Read.val_main_v28_apply, Cert.ReferenceIdeal.Read.val_main_v27_apply,
    Cert.ReferenceIdeal.Read.val_main_v26_apply, Cert.ReferenceIdeal.Read.val_main_v23_apply, Cert.ReferenceIdeal.Read.val_main_v25_apply, Cert.ReferenceIdeal.Read.val_main_v24_apply]
  have e1 : ∀ k, Cert.ReferenceIdeal.Read.lidx_main_v23 (ix2 p n) k = ix2 p k := fun k => funext fun a => Fin.ext (by match a with | ⟨0, _⟩ => rfl | ⟨1, _⟩ => rfl)
  have e2 : ∀ k, Cert.ReferenceIdeal.Read.ridx_main_v23 (ix2 p n) k = ix2 k n := fun k => funext fun a => Fin.ext (by match a with | ⟨0, _⟩ => rfl | ⟨1, _⟩ => rfl)
  have e3 : Cert.ReferenceIdeal.Read.idx_main_v24 (Cert.ReferenceIdeal.Read.idx_main_v25 (ix2 p n)) = ix1 n := funext fun a => Fin.ext (by match a with | ⟨0, _⟩ => rfl)
  simp only [e1, e2, e3]
  have h1 : FloatOps.ofBits (F := Ideal) .f32 0x3F800000#32 = (1 : EReal) := one_word
  rw [h1]
  rfl

end Reference

variable (m : (ℓ : Loc nD τ sig) → Buf (Elt Ideal) ℓ)

/-! ## What the region finds in its operands -/

theorem found_hidden (c : Dev nD) : (Gen.V7 m (early m) c main_v17 : S1024x1024.Idx → EReal) = hiddenLeft m c := by
  rw [Gen.V7_of m (early m) c main_v17 (by decide)]
  show Function.update (Gen.V5 m c) (Proc.devRef .tc main_v17) (early m 6 main_v17 c) (Proc.devRef .tc main_v17) = _
  rw [Function.update_self]; exact leftBy_hidden m _ 6 c

theorem found_weights (c : Dev nD) : (Gen.V7 m (early m) c main_arg9 : S1024x66049.Idx → EReal) = (m ((c : Thread nD τ).loc main_arg9)) :=
  (Gen.V7_of m _ c main_arg9 (by decide)).trans <| (Gen.V6_of m _ c main_arg9 (by decide)).trans <| (Gen.V5_of m c main_arg9 (by decide)).trans <| (Gen.V4_of m c main_arg9 (by decide)).trans <|
    (Gen.V3_of m c main_arg9 (by decide)).trans <| (Gen.V2_of m c main_arg9 (by decide)).trans <| Gen.V1_of m c main_arg9 (by decide)

theorem early_bias (c : Dev nD) : Gen.V6 m (early m) c main_arg10 = (m ((c : Thread nD τ).loc main_arg10)) :=
  (Gen.V6_of m _ c main_arg10 (by decide)).trans <| (Gen.V5_of m c main_arg10 (by decide)).trans <| (Gen.V4_of m c main_arg10 (by decide)).trans <|
    (Gen.V3_of m c main_arg10 (by decide)).trans <| (Gen.V2_of m c main_arg10 (by decide)).trans <| Gen.V1_of m c main_arg10 (by decide)

theorem found_bias (c : Dev nD) : (Gen.V7 m (early m) c main_v18 : S1x66049.Idx → EReal) = shapeCast S1x66049 (m ((c : Thread nD τ).loc main_arg10)) shapeCasts_S66049_S1x66049 := by
  dsimp only [Gen.V7, hostOps1]
  after_results
  rw [early_bias]
  rfl

/-! ## The blocks -/

/-- The printed index maps over the 52 points: the hidden layer's window stays at block 0; the weight, bias and result
    windows' block index is the point on the column axis. -/
theorem head_index : ∀ t : Fin cfg1.N, (win1_0.index t (0 : Fin 2) = 0 ∧ win1_0.index t (1 : Fin 2) = 0)
    ∧ (win1_1.index t (0 : Fin 2) = 0 ∧ win1_1.index t (1 : Fin 2) = t.val) ∧ (win1_2.index t (0 : Fin 2) = 0 ∧ win1_2.index t (1 : Fin 2) = t.val)
    ∧ (win1_3.index t (0 : Fin 2) = 0 ∧ win1_3.index t (1 : Fin 2) = t.val) :=
  (by decide +kernel : ∀ t : Fin grid1.N, _)

/-- How many columns a transfer moves at each point: all 1280 but at the last point, 769. -/
theorem head_extent : ∀ t : Fin cfg1.N, win1_3.xsize (grid1.coords t) (1 : Fin 2) = if t.val = 51 then 769 else 1280 :=
  (by decide +kernel : ∀ t : Fin grid1.N, _)

theorem points : cfg1.N = 52 := N_1

/-- The result's column under column q of the block of point t, for a column the transfers move. -/
def colOf (t : Fin cfg1.N) (q : Nat) (hq : q < win1_3.xsize (grid1.coords t) (1 : Fin 2)) : Fin 66049 := ⟨t.val * 1280 + q, by
  have ht : t.val < 52 := lt_of_lt_of_eq t.isLt N_1
  rw [head_extent t] at hq
  split at hq <;> omega⟩

theorem hidden_block (c : Dev nD) (t : Fin cfg1.N) : Head.blockAt (atHead m) c 0 t = hiddenLeft m c := by
  funext y
  show (Gen.V7 m (early m) c main_v17 : S1024x1024.Idx → EReal) (((cfg1.win 0).blk t).view.emb y) = _
  rw [found_hidden]
  refine congrArg _ (funext fun a => Fin.ext ?_)
  have e := (head_index t).1
  match a with
  | ⟨0, _⟩ => show win1_0.index t (0 : Fin 2) * 1024 + 1 * (y 0).val = (y 0).val; rw [e.1]; omega
  | ⟨1, _⟩ => show win1_0.index t (1 : Fin 2) * 1024 + 1 * (y 1).val = (y 1).val; rw [e.2]; omega

theorem weights_entry (c : Dev nD) (t : Fin cfg1.N) (k : Fin 1024) (p : Fin 1024) (q : Fin 1280)
    (hm : win1_3.moved (grid1.coords t) (ix2 p q) = true) (n : Fin 66049) (hn : n.val = t.val * 1280 + q.val) :
    weights (atHead m) c t (ix2 k q) = (m ((c : Thread nD τ).loc main_arg9)) (ix2 k n) := by
  have hw : win1_1.moved (grid1.coords t) (ix2 k q) = true := weight_moved _ (ix2 p q) k hm
  unfold weights Window.fill
  rw [dif_pos hw]
  show (Gen.V7 m (early m) c main_arg9 : S1024x66049.Idx → EReal) (((cfg1.win 1).blk t).view.emb _) = _
  rw [found_weights]
  refine congrArg _ (funext fun a => Fin.ext ?_)
  have e := (head_index t).2.1
  match a with
  | ⟨0, _⟩ => show win1_1.index t (0 : Fin 2) * 1024 + 1 * k.val = k.val; rw [e.1]; omega
  | ⟨1, _⟩ => show win1_1.index t (1 : Fin 2) * 1280 + 1 * q.val = n.val; rw [e.2, hn]; omega

theorem bias_entry (c : Dev nD) (t : Fin cfg1.N) (p : Fin 1024) (q : Fin 1280)
    (hm : win1_3.moved (grid1.coords t) (ix2 p q) = true) (n : Fin 66049) (hn : n.val = t.val * 1280 + q.val) :
    bias (atHead m) c t (ix2 (0 : Fin 1) q) = (m ((c : Thread nD τ).loc main_arg10)) (ix1 n) := by
  have hb : win1_2.moved (grid1.coords t) (ix2 (0 : Fin 1) q) = true := bias_moved _ (ix2 p q) hm
  unfold bias Window.fill
  rw [dif_pos hb]
  show (Gen.V7 m (early m) c main_v18 : S1x66049.Idx → EReal) (((cfg1.win 2).blk t).view.emb _) = _
  rw [found_bias]
  have hidx : ((cfg1.win 2).blk t).view.emb (fun a => ⟨((ix2 (0 : Fin 1) q : S1x1280.Idx) a).val,
      (win1_2.moved_iff (grid1.coords t) (ix2 (0 : Fin 1) q)).mp hb a⟩) = ix2 (0 : Fin 1) n := by
    funext a; apply Fin.ext
    have e := (head_index t).2.2.1
    match a with
    | ⟨0, _⟩ => show win1_2.index t (0 : Fin 2) * 1 + 1 * 0 = 0; rw [e.1]
    | ⟨1, _⟩ => show win1_2.index t (1 : Fin 2) * 1280 + 1 * q.val = n.val; rw [e.2, hn]; omega
  rw [hidx]
  exact shapeCast_a_1a_apply _ _ _ _

/-- What point t writes back is the reference's head at the block's entries. -/
theorem head_block (c : Dev nD) (t : Fin cfg1.N) (y : (win1_3.xblock (grid1.coords t)).Idx) :
    win1_3.cut (grid1.coords t) (scores (atHead m) c t) y
      = (val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : S1024x66049.Idx → EReal) (((cfg1.win 3).blk t).view.emb y) := by
  have hp : (y 0).val < 1024 := (y 0).isLt
  have hq : (y 1).val < 1280 := lt_of_lt_of_le (y 1).isLt (win1_3.xsize_le (grid1.coords t) 1)
  let p : Fin 1024 := ⟨(y 0).val, hp⟩
  let q : Fin 1280 := ⟨(y 1).val, hq⟩
  have hJ : (win1_3.xinj (grid1.coords t) y : S1024x1280.Idx) = ix2 p q := by
    funext a; apply Fin.ext
    match a with
    | ⟨0, _⟩ => rfl
    | ⟨1, _⟩ => rfl
  have hm : win1_3.moved (grid1.coords t) (ix2 p q) = true := hJ ▸ win1_3.moved_xinj (grid1.coords t) y
  let n : Fin 66049 := colOf t (y 1).val (y 1).isLt
  have hemb : ((cfg1.win 3).blk t).view.emb y = ix2 p n := by
    funext a; apply Fin.ext
    have e := (head_index t).2.2.2
    match a with
    | ⟨0, _⟩ => show win1_3.index t (0 : Fin 2) * 1024 + 1 * (y 0).val = (y 0).val; rw [e.1]; omega
    | ⟨1, _⟩ => show win1_3.index t (1 : Fin 2) * 1280 + 1 * (y 1).val = t.val * 1280 + (y 1).val; rw [e.2]; omega
  rw [hemb, ref_head]
  show scores (atHead m) c t (win1_3.xinj (grid1.coords t) y) = _
  unfold scores
  rw [hJ, entry, hidden_block, bias_entry m c t p q hm n rfl]
  simp only [fun k => weights_entry m c t k p q hm n rfl, hidden_eq]

/-! ## The result array after the region -/

theorem mem_cols (t : Fin cfg1.N) (i : S1024x66049.Idx) :
    i ∈ ((cfg1.win 3).blk t).view.set ↔ ∀ a : Fin 2, win1_3.index t a * S1024x1280.size a ≤ (i a).val
      ∧ (i a).val < win1_3.index t a * S1024x1280.size a + win1_3.xsize (grid1.coords t) a := by
  show i ∈ ((View.whole main_v19).slice (win1_3.rect t)).set ↔ _
  rw [View.set_slice_whole, Rect.mem_set_unit]
  exact Iff.rfl

/-- After the second region the result array holds the reference's head. -/
theorem result_eq (c : Dev nD) :
    resultLeft m c = (val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : S1024x66049.Idx → EReal) := by
  unfold resultLeft
  refine (Head.dat (atHead m) c).arrAt_eq_of_cover 3 _ (fun t _ => ?_) (fun i => ?_)
  · show (cfg1.win 3).cut (grid1.coords t) ((Head.dat (atHead m) c).after 3 t) = _
    rw [Head.left_3]
    funext y
    exact head_block m c t y
  · have h0 : (i 0).val < 1024 := (i 0).isLt
    have h1 : (i 1).val < 66049 := (i 1).isLt
    let t : Fin cfg1.N := ⟨(i 1).val / 1280, by rw [points]; omega⟩
    refine ⟨t, flush1_3 _, ?_⟩
    rw [mem_cols]
    have e := (head_index t).2.2.2
    have hx := head_extent t
    intro a
    match a with
    | ⟨0, _⟩ =>
      show win1_3.index t (0 : Fin 2) * 1024 ≤ (i 0).val ∧ (i 0).val < win1_3.index t (0 : Fin 2) * 1024 + win1_3.xsize (grid1.coords t) (0 : Fin 2)
      rw [e.1]; show 0 * 1024 ≤ (i 0).val ∧ (i 0).val < 0 * 1024 + 1024; omega
    | ⟨1, _⟩ =>
      show win1_3.index t (1 : Fin 2) * 1280 ≤ (i 1).val ∧ (i 1).val < win1_3.index t (1 : Fin 2) * 1280 + win1_3.xsize (grid1.coords t) (1 : Fin 2)
      rw [e.2, hx]
      show (i 1).val / 1280 * 1280 ≤ (i 1).val ∧ (i 1).val < (i 1).val / 1280 * 1280 + (if (i 1).val / 1280 = 51 then 769 else 1280)
      split <;> omega

end Cert.KernelIdeal.HeadValue

end
-- ==== Proof.Algebraic.lean ====
/-
  The two idealized programs end with equal results. The kernel's run names its result: the second region's array reshaped to
  three axes. That array is the reference's head stage (the 52 column blocks, each entry a logistic of a sum over the hidden
  layer's row, which is the reference's third layer), and the reshape is the same operation on both sides. The reference's
  generated run names its result as the composed term of its operations, which is the stage by definition. The arguments of
  the two runs agree by hypothesis.
-/
import proofs.«157737_j67053029425158_2_alg».proof.Defs
import proofs.«157737_j67053029425158_2_alg».proof.Proof.HeadValue
import proofs.«157737_j67053029425158_2_alg».proof.Proof.Gen.ReferenceIdeal.Run
import proofs.«157737_j67053029425158_2_alg».proof.Proof.Gen.ReferenceIdeal.Read
import proofs.«157737_j67053029425158_2_alg».proof.Proof.Gen.Pre_finite_inputs

noncomputable section

namespace Cert.Proof.Algebraic

open Cert.KernelIdeal Cert.KernelIdeal.Gen Cert.KernelIdeal.Frames Cert.KernelIdeal.Exact Cert.KernelIdeal.HeadValue
open Idealize.ShloMosaic Idealize.ShloMosaic.TcCoe Idealize.ShloMosaic.StableHlo Idealize.SL.Sem

variable (m : (ℓ : Loc nD τ sig) → Buf (Elt Ideal) ℓ)

/-- The kernel's result array after its run is the reference's result stage of the same arguments. -/
theorem kernel_result (c : Dev nD) :
    Cert.KernelIdeal.Exact.result m c
      = (Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : S1024x257x257.Idx → EReal) := by
  have h19 : Gen.V8 m (named m) c main_v19 = resultLeft m c := by
    show Function.update (Gen.V7 m _ c) (Proc.devRef .tc main_v19) (named m 8 main_v19 c) (Proc.devRef .tc main_v19) = _
    rw [Function.update_self]; exact leftBy_result m _ 8 c
  unfold Cert.KernelIdeal.Exact.result
  dsimp only [Gen.V9, hostOps2]
  after_results
  rw [h19, result_eq]
  rfl

theorem algebraic : Cert.algebraic_KernelIdeal_ReferenceIdeal := by
  intro m ρ m' ρ' _ hagree
  refine ⟨fun c => Cert.KernelIdeal.Exact.result m c, Cert.KernelIdeal.Exact.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10⟩ := hagree c
  rw [g0, g1, g2, g3, g4, g5, g6, g7, g8, g9, g10]
  exact (kernel_result m c).symm

end Cert.Proof.Algebraic

end
-- ==== Proof.lean ====
/-
  The five parts of the claim.

  The kernel is two regions. The first computes, for rows 512·t … 512·t + 511 (t = 0, 1), three dense layers
  h ↦ max(h·W + b, 0) from the input rows [noise | embedding row] padded with twelve zero columns against the first weight
  matrix padded with twelve zero rows. The second computes, for columns 1280·t … 1280·t + 1279 (t = 0 … 51), the
  logistic of (hidden layer)·(weight columns) + (bias columns); its last block overhangs the 66049 columns by 511.
  The reference is the same four layers as whole-array products, without the padding, its logistic spelt 1 / (1 + e^(−x)).

  Frames. Each region's body is run once on whole staging buffers (loads, one pure value, one whole store); the staging
  of blocks, the launches and the write-backs are the pipeline library's. Past the array's end a clipped fetch leaves words
  nothing names, and at the word level a matrix product's entry may depend on its right factor's whole tile, so what the
  second region writes is, at the word level, not a function of the launch memory: its frame is proved with the result
  window's contents left unnamed, at any float interpretation, and that one proof text serves the printed kernel and its
  idealization. The reference launches no kernel: its frame is its generated run with the result dropped.

  The idealization rewrote no operation, so there is nothing to preserve beyond the program's own text.

  Equal results over the extended reals: a format change is the identity, the twelve padded terms of the first product are
  0·0, a block product into a zero accumulator is the same sum as the whole product's entry, which depends only on the
  same column of the right factor (so not on words past the array's end), and the logistic is by definition
  1 / (1 + e^(−x)). Only commutativity and associativity of the sums are used; finiteness of the inputs is not.
-/
import proofs.«157737_j67053029425158_2_alg».proof.Defs
import proofs.«157737_j67053029425158_2_alg».proof.Proof.Gen.Kernel
import proofs.«157737_j67053029425158_2_alg».proof.Proof.Gen.KernelIdeal
import proofs.«157737_j67053029425158_2_alg».proof.Proof.Gen.ReferenceIdeal
import proofs.«157737_j67053029425158_2_alg».proof.Proof.Gen.Pre_finite_inputs
import proofs.«157737_j67053029425158_2_alg».proof.Proof.RefFrame
import proofs.«157737_j67053029425158_2_alg».proof.Proof.Frames
import proofs.«157737_j67053029425158_2_alg».proof.Proof.BitsFrames
import proofs.«157737_j67053029425158_2_alg».proof.Proof.Algebraic

noncomputable section

namespace Cert.Proof

open Idealize.ShloMosaic Idealize.SL.Sem

/-- The printed kernel runs to the end, faults nowhere and leaves its arguments as launched. -/
theorem frame_k : Cert.frame_Kernel := fun m ρ _ => Cert.Kernel.Frames.frame (F := Bits) m ρ

/-- So does its idealization. -/
theorem frame_ki : Cert.frame_KernelIdeal := fun m ρ _ => Cert.KernelIdeal.Frames.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, Cert.Proof.Algebraic.algebraic⟩

end Cert.Proof

end
